-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v97)) (v2 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_v101) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S8192x16 : Shape := ⟨2, ![8192, 16]⟩
abbrev S512x32 : Shape := ⟨2, ![512, 32]⟩
abbrev S32x16 : Shape := ⟨2, ![32, 16]⟩
abbrev S16x16 : Shape := ⟨2, ![16, 16]⟩
abbrev S16 : Shape := ⟨1, ![16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S8192x16 : S_.BroadcastsInDim S8192x16 (![] : Fin 0 → Fin S8192x16.rank)
  reducesTo_S8192x16_S_d0_1 : S8192x16.ReducesTo [0, 1] S_
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S32x16 .f32) (main_arg16 : FVec F S16x16 .f32) (main_arg17 : FVec F S16 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S32x16 .f32 := Host.absf main_arg15
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16x16 .f32 := Host.absf main_arg16
  let main_cst_22 : FVec F S_ .f32 := constant S_ .f32 0x7F800000#32
  let main_v60 : FVec F S16x16 .f32 := broadcastInDim S16x16 ![] bcast_S_S16x16 main_cst_22
  let main_v61 : IVec S16x16 1 := cmpf .olt main_v59 main_v60
  let main_c_23 : IVec S_ 1 := constantI S_ 1 1#1
  let main_v62 : IVec S_ 1 := (fun x v => Host.reduce IntOp.andi x v reducesTo_S16x16_S_d0_1 h_S_) main_v61 main_c_23
  let main_v63 : IVec S_ 1 := andi main_v58 main_v62
  let main_v64 : FVec F S16 .f32 := Host.absf main_arg17
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg11 : FVec F S32x16 .f32) (main_arg12 : FVec F S32x16 .f32) (main_arg13 : FVec F S512x32 .f32) (main_arg14 : FVec F S32x16 .f32) (main_arg15 : FVec F S32x16 .f32) (main_arg16 : FVec F S16x16 .f32) (main_arg17 : FVec F S16 .f32) (main_v33 : IVec S_ 1) : IVec S_ 1 :=
  let main_v34 : FVec F S32x16 .f32 := Host.absf main_arg11
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S32x16 .f32 := Host.absf main_arg12
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S512x32 .f32 := Host.absf main_arg13
  let main_cst_16 : FVec F S_ .f32 := constant S_ .f32 0x7F800000#32
  let main_v45 : FVec F S512x32 .f32 := broadcastInDim S512x32 ![] bcast_S_S512x32 main_cst_16
  let main_v46 : IVec S512x32 1 := cmpf .olt main_v44 main_v45
  let main_c_17 : IVec S_ 1 := constantI S_ 1 1#1
  let main_v47 : IVec S_ 1 := (fun x v => Host.reduce IntOp.andi x v reducesTo_S512x32_S_d0_1 h_S_) main_v46 main_c_17
  let main_v48 : IVec S_ 1 := andi main_v43 main_v47
  let main_v49 : FVec F S32x16 .f32 := Host.absf main_arg14
  let main_cst_18 : FVec F S_ .f32 := constant S_ .f32 0x7F800000#32
  let main_v50 : FVec F S32x16 .f32 := broadcastInDim S32x16 ![] bcast_S_S32x16 main_cst_18
  fn_part3 (F := F) main_arg15 main_arg16 main_arg17 main_v48 main_v49 main_v50

def fn_part1 {F : FTy → Type} [FloatOps F] (main_arg8 : FVec F S8192x16 .f32) (main_arg9 : FVec F S8192x16 .f32) (main_arg10 : FVec F S512x32 .f32) (main_arg11 : FVec F S32x16 .f32) (main_arg12 : FVec F S32x16 .f32) (main_arg13 : FVec F S512x32 .f32) (main_arg14 : FVec F S32x16 .f32) (main_arg15 : FVec F S32x16 .f32) (main_arg16 : FVec F S16x16 .f32) (main_arg17 : FVec F S16 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S8192x16 .f32 := Host.absf main_arg8
  let main_cst_6 : FVec F S_ .f32 := constant S_ .f32 0x7F800000#32
  let main_v20 : FVec F S8192x16 .f32 := broadcastInDim S8192x16 ![] bcast_S_S8192x16 main_cst_6
  let main_v21 : IVec S8192x16 1 := cmpf .olt main_v19 main_v20
  let main_c_7 : IVec S_ 1 := constantI S_ 1 1#1
  let main_v22 : IVec S_ 1 := (fun x v => Host.reduce IntOp.andi x v reducesTo_S8192x16_S_d0_1 h_S_) main_v21 main_c_7
  let main_v23 : IVec S_ 1 := andi main_v18 main_v22
  let main_v24 : FVec F S8192x16 .f32 := Host.absf main_arg9
  let main_cst_8 : FVec F S_ .f32 := constant S_ .f32 0x7F800000#32
  let main_v25 : FVec F S8192x16 .f32 := broadcastInDim S8192x16 ![] bcast_S_S8192x16 main_cst_8
  let main_v26 : IVec S8192x16 1 := cmpf .olt main_v24 main_v25
  let main_c_9 : IVec S_ 1 := constantI S_ 1 1#1
  let main_v27 : IVec S_ 1 := (fun x v => Host.reduce IntOp.andi x v reducesTo_S8192x16_S_d0_1 h_S_) main_v26 main_c_9
  let main_v28 : IVec S_ 1 := andi main_v23 main_v27
  let main_v29 : FVec F S512x32 .f32 := Host.absf main_arg10
  let main_cst_10 : FVec F S_ .f32 := constant S_ .f32 0x7F800000#32
  let main_v30 : FVec F S512x32 .f32 := broadcastInDim S512x32 ![] bcast_S_S512x32 main_cst_10
  let main_v31 : IVec S512x32 1 := cmpf .olt main_v29 main_v30
  let main_c_11 : IVec S_ 1 := constantI S_ 1 1#1
  let main_v32 : IVec S_ 1 := (fun x v => Host.reduce IntOp.andi x v reducesTo_S512x32_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S8192x512 .f32) (main_arg1 : IVec S262144 32) (main_arg2 : IVec S262144 32) (main_arg3 : FVec F S262144 .f32) (main_arg4 : FVec F S8192x512 .f32) (main_arg5 : IVec S262144 32) (main_arg6 : IVec S262144 32) (main_arg7 : FVec F S262144 .f32) (main_arg8 : FVec F S8192x16 .f32) (main_arg9 : FVec F S8192x16 .f32) (main_arg10 : FVec F S512x32 .f32) (main_arg11 : FVec F S32x16 .f32) (main_arg12 : FVec F S32x16 .f32) (main_arg13 : FVec F S512x32 .f32) (main_arg14 : FVec F S32x16 .f32) (main_arg15 : FVec F S32x16 .f32) (main_arg16 : FVec F S16x16 .f32) (main_arg17 : FVec F S16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S8192x512 .f32 := Host.absf main_arg4
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S262144 .f32 := Host.absf main_arg7
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg8 main_arg9 main_arg10 main_arg11 main_arg12 main_arg13 main_arg14 main_arg15 main_arg16 main_arg17 main_v13 main_v16
-- ==== Kernel.lean ====
abbrev S8192x512 : Shape := ⟨2, ![8192, 512]⟩
abbrev S262144 : Shape := ⟨1, ![262144]⟩
abbrev S8192x16 : Shape := ⟨2, ![8192, 16]⟩
abbrev S512x32 : Shape := ⟨2, ![512, 32]⟩
abbrev S32x16 : Shape := ⟨2, ![32, 16]⟩
abbrev S16x16 : Shape := ⟨2, ![16, 16]⟩
abbrev S16 : Shape := ⟨1, ![16]⟩
abbrev S8192x32 : Shape := ⟨2, ![8192, 32]⟩
abbrev S_ : Shape := ⟨0, ![]⟩
abbrev S262144x1 : Shape := ⟨2, ![262144, 1]⟩
abbrev S262144x32 : Shape := ⟨2, ![262144, 32]⟩
abbrev S262144x16 : Shape := ⟨2, ![262144, 16]⟩
abbrev S8192x8192 : Shape := ⟨2, ![8192, 8192]⟩
abbrev S2048x16 : Shape := ⟨2, ![2048, 16]⟩
abbrev S2048x2048 : Shape := ⟨2, ![2048, 2048]⟩
abbrev S67108864 : Shape := ⟨1, ![67108864]⟩
abbrev S1x16 : Shape := ⟨2, ![1, 16]⟩

abbrev nBuf : Space → Nat
  | .hbm => 142
  | .vmem => 12
  | .smem => 0
  | _ => 0

abbrev hbmTy0_0 (i : Nat) : BufTy := match i % 128 with
  | 0 => ⟨S8192x512, .f32⟩
  | 1 => ⟨S262144, .i32⟩
  | 2 => ⟨S262144, .i32⟩
  | 3 => ⟨S262144, .f32⟩
  | 4 => ⟨S8192x512, .f32⟩
  | 5 => ⟨S262144, .i32⟩
  | 6 => ⟨S262144, .i32⟩
  | 7 => ⟨S262144, .f32⟩
  | 8 => ⟨S8192x16, .f32⟩
  | 9 => ⟨S8192x16, .f32⟩
  | 10 => ⟨S512x32, .f32⟩
  | 11 => ⟨S32x16, .f32⟩
  | 12 => ⟨S32x16, .f32⟩
  | 13 => ⟨S512x32, .f32⟩
  | 14 => ⟨S32x16, .f32⟩
  | 15 => ⟨S32x16, .f32⟩
  | 16 => ⟨S16x16, .f32⟩
  | 17 => ⟨S16, .f32⟩
  | 18 => ⟨S8192x32, .f32⟩
  | 19 => ⟨S_, .i32⟩
  | 20 => ⟨S262144, .i32⟩
  | 21 => ⟨S262144, .i1⟩
  | 22 => ⟨S_, .i32⟩
  | 23 => ⟨S262144, .i32⟩
  | 24 => ⟨S262144, .i32⟩
  | 25 => ⟨S262144, .i32⟩
  | 26 => ⟨S262144x1, .i32⟩
  | 27 => ⟨S262144x32, .f32⟩
  | 28 => ⟨S262144x1, .f32⟩
  | 29 => ⟨S262144x32, .f32⟩
  | 30 => ⟨S262144x32, .f32⟩
  | 31 => ⟨S_, .f32⟩
  | 32 => ⟨S8192x32, .f32⟩
  | 33 => ⟨S262144x1, .i32⟩
  | 34 => ⟨S8192x32, .f32⟩
  | 35 => ⟨S_, .f32⟩
  | 36 => ⟨S8192x32, .f32⟩
  | 37 => ⟨S8192x32, .f32⟩
  | 38 => ⟨S8192x16, .f32⟩
  | 39 => ⟨S_, .i32⟩
  | 40 => ⟨S262144, .i32⟩
  | 41 => ⟨S262144, .i1⟩
  | 42 => ⟨S_, .i32⟩
  | 43 => ⟨S262144, .i32⟩
  | 44 => ⟨S262144, .i32⟩
  | 45 => ⟨S262144, .i32⟩
  | 46 => ⟨S262144x1, .i32⟩
  | 47 => ⟨S262144x16, .f32⟩
  | 48 => ⟨S262144x1, .f32⟩
  | 49 => ⟨S262144x16, .f32⟩
  | 50 => ⟨S262144x16, .f32⟩
  | 51 => ⟨S_, .f32⟩
  | 52 => ⟨S8192x16, .f32⟩
  | 53 => ⟨S262144x1, .i32⟩
  | 54 => ⟨S8192x16, .f32⟩
  | 55 => ⟨S8192x16, .f32⟩
  | 56 => ⟨S_, .i32⟩
  | 57 => ⟨S262144, .i32⟩
  | 58 => ⟨S262144, .i1⟩
  | 59 => ⟨S_, .i32⟩
  | 60 => ⟨S262144, .i32⟩
  | 61 => ⟨S262144, .i32⟩
  | 62 => ⟨S262144, .i32⟩
  | 63 => ⟨S262144x1, .i32⟩
  | 64 => ⟨S262144x16, .f32⟩
  | 65 => ⟨S262144x1, .f32⟩
  | 66 => ⟨S262144x16, .f32⟩
  | 67 => ⟨S262144x16, .f32⟩
  | 68 => ⟨S_, .f32⟩
  | 69 => ⟨S8192x16, .f32⟩
  | 70 => ⟨S262144x1, .i32⟩
  | 71 => ⟨S8192x16, .f32⟩
  | 72 => ⟨S8192x16, .f32⟩
  | 73 => ⟨S8192x16, .f32⟩
  | 74 => ⟨S8192x16, .f32⟩
  | 75 => ⟨S8192x16, .bf16⟩
  | 76 => ⟨S8192x8192, .f32⟩
  | 77 => ⟨S67108864, .f32⟩
  | 78 => ⟨S8192x32, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x32, .f32⟩
  | 88 => ⟨S262144x1, .f32⟩
  | 89 => ⟨S262144x32, .f32⟩
  | 90 => ⟨S262144x32, .f32⟩
  | 91 => ⟨S_, .f32⟩
  | 92 => ⟨S8192x32, .f32⟩
  | 93 => ⟨S262144x1, .i32⟩
  | 94 => ⟨S8192x32, .f32⟩
  | 95 => ⟨S_, .f32⟩
  | 96 => ⟨S8192x32, .f32⟩
  | 97 => ⟨S8192x32, .f32⟩
  | 98 => ⟨S8192x16, .f32⟩
  | 99 => ⟨S_, .i32⟩
  | 100 => ⟨S262144, .i32⟩
  | 101 => ⟨S262144, .i1⟩
  | 102 => ⟨S_, .i32⟩
  | 103 => ⟨S262144, .i32⟩
  | 104 => ⟨S262144, .i32⟩
  | 105 => ⟨S262144, .i32⟩
  | 106 => ⟨S262144x1, .i32⟩
  | 107 => ⟨S262144x16, .f32⟩
  | 108 => ⟨S262144x1, .f32⟩
  | 109 => ⟨S262144x16, .f32⟩
  | 110 => ⟨S262144x16, .f32⟩
  | 111 => ⟨S_, .f32⟩
  | 112 => ⟨S8192x16, .f32⟩
  | 113 => ⟨S262144x1, .i32⟩
  | 114 => ⟨S8192x16, .f32⟩
  | 115 => ⟨S8192x16, .f32⟩
  | 116 => ⟨S_, .i32⟩
  | 117 => ⟨S262144, .i32⟩
  | 118 => ⟨S262144, .i1⟩
  | 119 => ⟨S_, .i32⟩
  | 120 => ⟨S262144, .i32⟩
  | 121 => ⟨S262144, .i32⟩
  | 122 => ⟨S262144, .i32⟩
  | 123 => ⟨S262144x1, .i32⟩
  | 124 => ⟨S262144x16, .f32⟩
  | 125 => ⟨S262144x1, .f32⟩
  | 126 => ⟨S262144x16, .f32⟩
  | 127 => ⟨S262144x16, .f32⟩
  | _ => ⟨S8192x512, .f32⟩

abbrev hbmTy0_1 (i : Nat) : BufTy := match i % 128 with
  | 0 => ⟨S_, .f32⟩
  | 1 => ⟨S8192x16, .f32⟩
  | 2 => ⟨S262144x1, .i32⟩
  | 3 => ⟨S8192x16, .f32⟩
  | 4 => ⟨S8192x16, .f32⟩
  | 5 => ⟨S8192x16, .f32⟩
  | 6 => ⟨S8192x16, .f32⟩
  | 7 => ⟨S8192x16, .bf16⟩
  | 8 => ⟨S8192x8192, .f32⟩
  | 9 => ⟨S67108864, .f32⟩
  | 10 => ⟨S8192x16, .f32⟩
  | 11 => ⟨S1x16, .f32⟩
  | 12 => ⟨S8192x16, .f32⟩
  | 13 => ⟨S8192x16, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S2048x16, .bf16⟩
  | .local _ .vmem, ⟨1, _⟩ => ⟨S2048x16, .bf16⟩
  | .local _ .vmem, ⟨2, _⟩ => ⟨S2048x16, .bf16⟩
  | .local _ .vmem, ⟨3, _⟩ => ⟨S2048x16, .bf16⟩
  | .local _ .vmem, ⟨4, _⟩ => ⟨S2048x2048, .f32⟩
  | .local _ .vmem, ⟨5, _⟩ => ⟨S2048x2048, .f32⟩
  | .local _ .vmem, ⟨6, _⟩ => ⟨S2048x16, .bf16⟩
  | .local _ .vmem, ⟨7, _⟩ => ⟨S2048x16, .bf16⟩
  | .local _ .vmem, ⟨8, _⟩ => ⟨S2048x16, .bf16⟩
  | .local _ .vmem, ⟨9, _⟩ => ⟨S2048x16, .bf16⟩
  | .local _ .vmem, ⟨10, _⟩ => ⟨S2048x2048, .f32⟩
  | .local _ .vmem, ⟨11, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call0_cst : Ref sig .tc := ⟨.hbm, 35, rfl⟩
abbrev main_call0_v0 : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_7 : Ref sig .tc := ⟨.hbm, 79, rfl⟩
abbrev main_v50 : Ref sig .tc := ⟨.hbm, 80, rfl⟩
abbrev main_v51 : Ref sig .tc := ⟨.hbm, 81, rfl⟩
abbrev main_c_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call1_cst : Ref sig .tc := ⟨.hbm, 95, rfl⟩
abbrev main_call1_v0 : Ref sig .tc := ⟨.hbm, 96, rfl⟩
abbrev main_v63 : Ref sig .tc := ⟨.hbm, 97, rfl⟩
abbrev main_v64 : Ref sig .tc := ⟨.hbm, 98, rfl⟩
abbrev main_c_10 : Ref sig .tc := ⟨.hbm, 99, rfl⟩
abbrev main_v65 : Ref sig .tc := ⟨.hbm, 100, rfl⟩
abbrev main_v66 : Ref sig .tc := ⟨.hbm, 101, rfl⟩
abbrev main_c_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_13 : Ref sig .tc := ⟨.hbm, 116, rfl⟩
abbrev main_v79 : Ref sig .tc := ⟨.hbm, 117, rfl⟩
abbrev main_v80 : Ref sig .tc := ⟨.hbm, 118, rfl⟩
abbrev main_c_14 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x16 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x32_0_1 : S262144x1.BroadcastsInDim S262144x32 (![0, 1] : Fin 2 → Fin S262144x32.rank)
  bcast_S_S8192x32 : S_.BroadcastsInDim S8192x32 (![] : Fin 0 → Fin S8192x32.rank)
  bcast_S262144x1_S262144x16_0_1 : S262144x1.BroadcastsInDim S262144x16 (![0, 1] : Fin 2 → Fin S262144x16.rank)
  bcast_S_S8192x16 : S_.BroadcastsInDim S8192x16 (![] : Fin 0 → Fin S8192x16.rank)
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x2048_S2048x2048_0_0 : ∀ a, (![0, 0] : Fin 2 → Nat) a + S2048x2048.size a ≤ S2048x2048.size a
  h_S2048x2048 : 0 < S2048x2048.numel
  shapeCasts_S8192x8192_S67108864 : S8192x8192.ShapeCasts S67108864
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  dot_S8192x512_S512x32_S8192x32_1_0_0_1_n_n_wf : DotDims.WF S8192x512 S512x32 S8192x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S8192x32_S32x16_S8192x16_1_0_0_1_n_n_wf : DotDims.WF S8192x32 S32x16 S8192x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S2048x16_S2048x16_S2048x2048_1_1_0_0_n_n_wf : DotDims.WF S2048x16 S2048x16 S2048x2048 [1] [1] [0] [0] [] []
  dot_S8192x16_S16x16_S8192x16_1_0_0_1_n_n_wf : DotDims.WF S8192x16 S16x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S8192x16.size a
  hwx0_0 : ∀ i : grid0.Coords, EltTy.bits .bf16 = 32 ∨ (Rect.block (s := S8192x16) S2048x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S8192x16.size a
  hwx0_1 : ∀ i : grid0.Coords, EltTy.bits .bf16 = 32 ∨ (Rect.block (s := S8192x16) S2048x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x16.size a ≤ S8192x16.size a
  hwx1_0 : ∀ i : grid1.Coords, EltTy.bits .bf16 = 32 ∨ (Rect.block (s := S8192x16) S2048x16.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S8192x16.size a
  hwx1_1 : ∀ i : grid1.Coords, EltTy.bits .bf16 = 32 ∨ (Rect.block (s := S8192x16) S2048x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S8192x8192.size a
  hwx1_2 : ∀ i : grid1.Coords, EltTy.bits .f32 = 32 ∨ (Rect.block (s := S8192x8192) S2048x2048.size (cc1_transform_2 i) (hinb1_2 i)).WholeWords (EltTy.packing .f32)

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S2048x16_S2048x16_S2048x2048_1_1_0_0_n_n : DotDims S2048x16 S2048x16 S2048x2048 where
  lhsContracting := [1]
  rhsContracting := [1]
  lhsNonContracting := [0]
  rhsNonContracting := [0]
  lhsBatch := []
  rhsBatch := []
  wf := dot_S2048x16_S2048x16_S2048x2048_1_1_0_0_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf

abbrev win0_0 : Pipeline.Window sig grid0 :=
  Pipeline.Window.ofSpec (Memref.whole main_v46) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v95) S2048x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v95) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v96) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x512 : Shape := ⟨2, ![8192, 512]⟩
abbrev S262144 : Shape := ⟨1, ![262144]⟩
abbrev S8192x16 : Shape := ⟨2, ![8192, 16]⟩
abbrev S512x32 : Shape := ⟨2, ![512, 32]⟩
abbrev S32x16 : Shape := ⟨2, ![32, 16]⟩
abbrev S16x16 : Shape := ⟨2, ![16, 16]⟩
abbrev S16 : Shape := ⟨1, ![16]⟩
abbrev S8192x32 : Shape := ⟨2, ![8192, 32]⟩
abbrev S_ : Shape := ⟨0, ![]⟩
abbrev S262144x1 : Shape := ⟨2, ![262144, 1]⟩
abbrev S262144x32 : Shape := ⟨2, ![262144, 32]⟩
abbrev S262144x16 : Shape := ⟨2, ![262144, 16]⟩
abbrev S16x8192 : Shape := ⟨2, ![16, 8192]⟩
abbrev S8192x8192 : Shape := ⟨2, ![8192, 8192]⟩
abbrev S67108864 : Shape := ⟨1, ![67108864]⟩
abbrev S1x16 : Shape := ⟨2, ![1, 16]⟩

abbrev nBuf : Space → Nat
  | .hbm => 142
  | .vmem => 0
  | .smem => 0
  | _ => 0

abbrev hbmTy0_0 (i : Nat) : BufTy := match i % 128 with
  | 0 => ⟨S8192x512, .f32⟩
  | 1 => ⟨S262144, .i32⟩
  | 2 => ⟨S262144, .i32⟩
  | 3 => ⟨S262144, .f32⟩
  | 4 => ⟨S8192x512, .f32⟩
  | 5 => ⟨S262144, .i32⟩
  | 6 => ⟨S262144, .i32⟩
  | 7 => ⟨S262144, .f32⟩
  | 8 => ⟨S8192x16, .f32⟩
  | 9 => ⟨S8192x16, .f32⟩
  | 10 => ⟨S512x32, .f32⟩
  | 11 => ⟨S32x16, .f32⟩
  | 12 => ⟨S32x16, .f32⟩
  | 13 => ⟨S512x32, .f32⟩
  | 14 => ⟨S32x16, .f32⟩
  | 15 => ⟨S32x16, .f32⟩
  | 16 => ⟨S16x16, .f32⟩
  | 17 => ⟨S16, .f32⟩
  | 18 => ⟨S8192x32, .f32⟩
  | 19 => ⟨S_, .i32⟩
  | 20 => ⟨S262144, .i32⟩
  | 21 => ⟨S262144, .i1⟩
  | 22 => ⟨S_, .i32⟩
  | 23 => ⟨S262144, .i32⟩
  | 24 => ⟨S262144, .i32⟩
  | 25 => ⟨S262144, .i32⟩
  | 26 => ⟨S262144x1, .i32⟩
  | 27 => ⟨S262144x32, .f32⟩
  | 28 => ⟨S262144x1, .f32⟩
  | 29 => ⟨S262144x32, .f32⟩
  | 30 => ⟨S262144x32, .f32⟩
  | 31 => ⟨S_, .f32⟩
  | 32 => ⟨S8192x32, .f32⟩
  | 33 => ⟨S262144x1, .i32⟩
  | 34 => ⟨S8192x32, .f32⟩
  | 35 => ⟨S_, .f32⟩
  | 36 => ⟨S8192x32, .f32⟩
  | 37 => ⟨S8192x32, .f32⟩
  | 38 => ⟨S8192x16, .f32⟩
  | 39 => ⟨S_, .i32⟩
  | 40 => ⟨S262144, .i32⟩
  | 41 => ⟨S262144, .i1⟩
  | 42 => ⟨S_, .i32⟩
  | 43 => ⟨S262144, .i32⟩
  | 44 => ⟨S262144, .i32⟩
  | 45 => ⟨S262144, .i32⟩
  | 46 => ⟨S262144x1, .i32⟩
  | 47 => ⟨S262144x16, .f32⟩
  | 48 => ⟨S262144x1, .f32⟩
  | 49 => ⟨S262144x16, .f32⟩
  | 50 => ⟨S262144x16, .f32⟩
  | 51 => ⟨S_, .f32⟩
  | 52 => ⟨S8192x16, .f32⟩
  | 53 => ⟨S262144x1, .i32⟩
  | 54 => ⟨S8192x16, .f32⟩
  | 55 => ⟨S8192x16, .f32⟩
  | 56 => ⟨S_, .i32⟩
  | 57 => ⟨S262144, .i32⟩
  | 58 => ⟨S262144, .i1⟩
  | 59 => ⟨S_, .i32⟩
  | 60 => ⟨S262144, .i32⟩
  | 61 => ⟨S262144, .i32⟩
  | 62 => ⟨S262144, .i32⟩
  | 63 => ⟨S262144x1, .i32⟩
  | 64 => ⟨S262144x16, .f32⟩
  | 65 => ⟨S262144x1, .f32⟩
  | 66 => ⟨S262144x16, .f32⟩
  | 67 => ⟨S262144x16, .f32⟩
  | 68 => ⟨S_, .f32⟩
  | 69 => ⟨S8192x16, .f32⟩
  | 70 => ⟨S262144x1, .i32⟩
  | 71 => ⟨S8192x16, .f32⟩
  | 72 => ⟨S8192x16, .f32⟩
  | 73 => ⟨S8192x16, .f32⟩
  | 74 => ⟨S8192x16, .f32⟩
  | 75 => ⟨S16x8192, .f32⟩
  | 76 => ⟨S8192x8192, .f32⟩
  | 77 => ⟨S67108864, .f32⟩
  | 78 => ⟨S8192x32, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x32, .f32⟩
  | 88 => ⟨S262144x1, .f32⟩
  | 89 => ⟨S262144x32, .f32⟩
  | 90 => ⟨S262144x32, .f32⟩
  | 91 => ⟨S_, .f32⟩
  | 92 => ⟨S8192x32, .f32⟩
  | 93 => ⟨S262144x1, .i32⟩
  | 94 => ⟨S8192x32, .f32⟩
  | 95 => ⟨S_, .f32⟩
  | 96 => ⟨S8192x32, .f32⟩
  | 97 => ⟨S8192x32, .f32⟩
  | 98 => ⟨S8192x16, .f32⟩
  | 99 => ⟨S_, .i32⟩
  | 100 => ⟨S262144, .i32⟩
  | 101 => ⟨S262144, .i1⟩
  | 102 => ⟨S_, .i32⟩
  | 103 => ⟨S262144, .i32⟩
  | 104 => ⟨S262144, .i32⟩
  | 105 => ⟨S262144, .i32⟩
  | 106 => ⟨S262144x1, .i32⟩
  | 107 => ⟨S262144x16, .f32⟩
  | 108 => ⟨S262144x1, .f32⟩
  | 109 => ⟨S262144x16, .f32⟩
  | 110 => ⟨S262144x16, .f32⟩
  | 111 => ⟨S_, .f32⟩
  | 112 => ⟨S8192x16, .f32⟩
  | 113 => ⟨S262144x1, .i32⟩
  | 114 => ⟨S8192x16, .f32⟩
  | 115 => ⟨S8192x16, .f32⟩
  | 116 => ⟨S_, .i32⟩
  | 117 => ⟨S262144, .i32⟩
  | 118 => ⟨S262144, .i1⟩
  | 119 => ⟨S_, .i32⟩
  | 120 => ⟨S262144, .i32⟩
  | 121 => ⟨S262144, .i32⟩
  | 122 => ⟨S262144, .i32⟩
  | 123 => ⟨S262144x1, .i32⟩
  | 124 => ⟨S262144x16, .f32⟩
  | 125 => ⟨S262144x1, .f32⟩
  | 126 => ⟨S262144x16, .f32⟩
  | 127 => ⟨S262144x16, .f32⟩
  | _ => ⟨S8192x512, .f32⟩

abbrev hbmTy0_1 (i : Nat) : BufTy := match i % 128 with
  | 0 => ⟨S_, .f32⟩
  | 1 => ⟨S8192x16, .f32⟩
  | 2 => ⟨S262144x1, .i32⟩
  | 3 => ⟨S8192x16, .f32⟩
  | 4 => ⟨S8192x16, .f32⟩
  | 5 => ⟨S8192x16, .f32⟩
  | 6 => ⟨S8192x16, .f32⟩
  | 7 => ⟨S16x8192, .f32⟩
  | 8 => ⟨S8192x8192, .f32⟩
  | 9 => ⟨S67108864, .f32⟩
  | 10 => ⟨S8192x16, .f32⟩
  | 11 => ⟨S1x16, .f32⟩
  | 12 => ⟨S8192x16, .f32⟩
  | 13 => ⟨S8192x16, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call0_cst : Ref sig .tc := ⟨.hbm, 35, rfl⟩
abbrev main_call0_v0 : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_7 : Ref sig .tc := ⟨.hbm, 79, rfl⟩
abbrev main_v50 : Ref sig .tc := ⟨.hbm, 80, rfl⟩
abbrev main_v51 : Ref sig .tc := ⟨.hbm, 81, rfl⟩
abbrev main_c_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call1_cst : Ref sig .tc := ⟨.hbm, 95, rfl⟩
abbrev main_call1_v0 : Ref sig .tc := ⟨.hbm, 96, rfl⟩
abbrev main_v63 : Ref sig .tc := ⟨.hbm, 97, rfl⟩
abbrev main_v64 : Ref sig .tc := ⟨.hbm, 98, rfl⟩
abbrev main_c_10 : Ref sig .tc := ⟨.hbm, 99, rfl⟩
abbrev main_v65 : Ref sig .tc := ⟨.hbm, 100, rfl⟩
abbrev main_v66 : Ref sig .tc := ⟨.hbm, 101, rfl⟩
abbrev main_c_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_13 : Ref sig .tc := ⟨.hbm, 116, rfl⟩
abbrev main_v79 : Ref sig .tc := ⟨.hbm, 117, rfl⟩
abbrev main_v80 : Ref sig .tc := ⟨.hbm, 118, rfl⟩
abbrev main_c_14 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x32_0_1 : S262144x1.BroadcastsInDim S262144x32 (![0, 1] : Fin 2 → Fin S262144x32.rank)
  bcast_S_S8192x32 : S_.BroadcastsInDim S8192x32 (![] : Fin 0 → Fin S8192x32.rank)
  bcast_S262144x1_S262144x16_0_1 : S262144x1.BroadcastsInDim S262144x16 (![0, 1] : Fin 2 → Fin S262144x16.rank)
  bcast_S_S8192x16 : S_.BroadcastsInDim S8192x16 (![] : Fin 0 → Fin S8192x16.rank)
  transposes_S8192x16_S16x8192_1_0 : S8192x16.Transposes [1, 0] S16x8192
  shapeCasts_S8192x8192_S67108864 : S8192x8192.ShapeCasts S67108864
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  dot_S8192x512_S512x32_S8192x32_1_0_0_1_n_n_wf : DotDims.WF S8192x512 S512x32 S8192x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S8192x32_S32x16_S8192x16_1_0_0_1_n_n_wf : DotDims.WF S8192x32 S32x16 S8192x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S8192x16_S16x8192_S8192x8192_1_0_0_1_n_n_wf : DotDims.WF S8192x16 S16x8192 S8192x8192 [1] [0] [0] [1] [] []
  dot_S8192x16_S16x16_S8192x16_1_0_0_1_n_n_wf : DotDims.WF S8192x16 S16x16 S8192x16 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf

class Facts : Prop extends Facts₀ where

variable [Facts]
-- ==== Proof.KData.lean ====
/-
  The two decoder calls of the word-level program: what each grid point reads and writes.

  Each call runs one body on a 4 × 4 grid. At point (i, j) the body reads band i (rows 2048·i … 2048·i + 2047) and band j
  of ONE [8192, 16] matrix z — the same array is handed to the call twice, once per operand window — and stores the
  2048 × 2048 product band_i · band_jᵀ as tile (i, j) of the [8192, 8192] result. This module names those blocks and the
  stored tile, and states the proof data of both calls at a parameter `V`, the contents of the core's buffers when the
  call is entered.
-/
import proofs.«105174_j53644141527286_1_alg».proof.Proof.Gen.Kernel.Launch
import proofs.«105174_j53644141527286_1_alg».proof.Proof.Gen.Kernel.Skeleton
import proofs.«105174_j53644141527286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole [2048, 16] operand buffer and the whole [2048, 2048] result buffer, as the body's loads and its store address them. -/
abbrev rIn : Rect S2048x16 := Rect.unit (s := S2048x16) ![0, 0] S2048x16.size inb_S2048x16_S2048x16_0_0
abbrev rOut : Rect S2048x2048 := Rect.unit (s := S2048x2048) ![0, 0] S2048x2048.size inb_S2048x2048_S2048x2048_0_0

section Regions
variable (V : (c : Dev nD) → (b : Ref sig .tc) → Buf (Elt F) ((c : Thread nD τ).loc b))

/-! ## Decoder call 0: blocks, the stored block, the proof data -/

/-- Window `w`'s block at grid point `t`, read off its array as the region finds it (`V`): for the two operand
    windows a band of 2048 rows of the one [8192, 16] matrix they share, for the result window a 2048 × 2048 tile. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the result window's buffer: its single whole-buffer store of the product `A · Bᵀ` of the two
    operand bands (into the zero accumulator), as the one piece that tiles the buffer. -/
def out0_2 (x0 x1 : Vec F S2048x16 .bf16) : Vec F S2048x2048 .f32 :=
  View.canon [⟨rOut, k0_pay1 (View.ld x0 rIn) (View.ld x1 rIn)⟩]

/-- The proof data of decoder call 0 on core `c`: the arrays as the region finds them; after the body each operand
    window's buffer still at its band, the result window's at the product of the two bands; the invariant is the part
    of the core's state the body never touches; nothing owed. The two operand windows read ONE array, so each holds half
    of it (the left and the right half of the full share); the result window's array is held outright. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem share0_0 (c : Dev nD) : (dat0 V c).share 0 = fullShare.left := by
  unfold Dat.share; rw [if_neg (by decide)]; dsimp only [dat0]
theorem share0_1 (c : Dev nD) : (dat0 V c).share 1 = fullShare.right := by
  unfold Dat.share; rw [if_neg (by decide)]; dsimp only [dat0]
theorem share0_2 (c : Dev nD) : (dat0 V c).share 2 = fullShare := by
  unfold Dat.share; rw [if_pos (by decide)]

/-! ## Decoder call 1: blocks, the stored block, the proof data -/

/-- Window `w`'s block at grid point `t`, read off its array as the region finds it (`V`): for the two operand
    windows a band of 2048 rows of the one [8192, 16] matrix they share, for the result window a 2048 × 2048 tile. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the result window's buffer: its single whole-buffer store of the product `A · Bᵀ` of the two
    operand bands (into the zero accumulator), as the one piece that tiles the buffer. -/
def out1_2 (x0 x1 : Vec F S2048x16 .bf16) : Vec F S2048x2048 .f32 :=
  View.canon [⟨rOut, k1_pay1 (View.ld x0 rIn) (View.ld x1 rIn)⟩]

/-- The proof data of decoder call 1 on core `c`: the arrays as the region finds them; after the body each operand
    window's buffer still at its band, the result window's at the product of the two bands; the invariant is the part
    of the core's state the body never touches; nothing owed. The two operand windows read ONE array, so each holds half
    of it (the left and the right half of the full share); the result window's array is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem share1_0 (c : Dev nD) : (dat1 V c).share 0 = fullShare.left := by
  unfold Dat.share; rw [if_neg (by decide)]; dsimp only [dat1]
theorem share1_1 (c : Dev nD) : (dat1 V c).share 1 = fullShare.right := by
  unfold Dat.share; rw [if_neg (by decide)]; dsimp only [dat1]
theorem share1_2 (c : Dev nD) : (dat1 V c).share 2 = fullShare := by
  unfold Dat.share; rw [if_pos (by decide)]

end Regions

end Cert.Kernel.Hand

end
-- ==== Proof.KBody.lean ====
/-
  The two decoder calls of the word-level program: the body at a grid point.

  The body loads its two operand buffers whole, multiplies (band · bandᵀ into zeros) and stores the product over the whole
  result buffer. So whatever the result buffer held, it ends at the product of the two operand buffers' contents, and
  the operand buffers are unchanged. With each operand buffer holding its band at every point, this is the pipeline's
  obligation for the body.
-/
import proofs.«105174_j53644141527286_1_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one store addresses the whole result buffer, so it covers it. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

section Regions
variable (V : (c : Dev nD) → (b : Ref sig .tc) → Buf (Elt F) ((c : Thread nD τ).loc b))

/-! ## Decoder call 0 -/

set_option maxHeartbeats 1000000 in
/-- The body on whole staging buffers — the operands' at contents `x0`, `x1`, the result's at anything — runs to the
    continuation with the operands' buffers as they were and the result's at the product `out0_2 x0 x1`: two loads, a
    load of the old result that is never used, one store that covers the buffer. -/
theorem sound_kernel0 (c : Dev nD) (E : Set ℕ) (i : grid0.Coords)
    (arg2 : Memref sig .tc .vmem S2048x16 .bf16) (harg2 : arg2.IsWhole)
    (arg3 : Memref sig .tc .vmem S2048x16 .bf16) (harg3 : arg3.IsWhole)
    (arg4 : Memref sig .tc .vmem S2048x2048 .f32) (harg4 : arg4.IsWhole)
    (x0 x1 : Vec F S2048x16 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__decoder_kernel i arg2 harg2 arg3 harg3 arg4 harg4) K := by
  simp only [cc0__decoder_kernel_eq_skeleton]; unfold cc0__decoder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- An operand window's current staging buffer holds its band at every point, fetched there or not: where the pipeline
    does not fetch, the band's index has not moved and the body left the band in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operand buffers hold their bands, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of decoder call 0, at every point. -/
theorem body_obligation0 (c : Dev nD) : BodyObligation (dat0 (F := F) V c) (defs₀ (F := F)) Variants.none () Set.univ := fun t => by
  rw [bigSep_W0, bigSep_W0]
  exact sound_body0 V c t

/-! ## Decoder call 1 -/

set_option maxHeartbeats 1000000 in
/-- The body on whole staging buffers — the operands' at contents `x0`, `x1`, the result's at anything — runs to the
    continuation with the operands' buffers as they were and the result's at the product `out1_2 x0 x1`: two loads, a
    load of the old result that is never used, one store that covers the buffer. -/
theorem sound_kernel1 (c : Dev nD) (E : Set ℕ) (i : grid1.Coords)
    (arg2 : Memref sig .tc .vmem S2048x16 .bf16) (harg2 : arg2.IsWhole)
    (arg3 : Memref sig .tc .vmem S2048x16 .bf16) (harg3 : arg3.IsWhole)
    (arg4 : Memref sig .tc .vmem S2048x2048 .f32) (harg4 : arg4.IsWhole)
    (x0 x1 : Vec F S2048x16 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__decoder_kernel i arg2 harg2 arg3 harg3 arg4 harg4) K := by
  simp only [cc1__decoder_kernel_eq_skeleton]; unfold cc1__decoder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- An operand window's current staging buffer holds its band at every point, fetched there or not: where the pipeline
    does not fetch, the band's index has not moved and the body left the band in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operand buffers hold their bands, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of decoder call 1, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KShare.lean ====
/-
  The two decoder calls of the word-level program: entering and leaving a call whose two operand windows read ONE array.

  A call is entered holding every unscoped buffer of the core whole. Its three windows name only two distinct buffers:
  the operand matrix (twice) and the result. The operand matrix is only ever read, so it is enough for each operand
  window to hold half of it; the two halves hold the same contents throughout, and join again when the call is left.
  The result array is held outright and ends at what the write-backs leave.
-/
import proofs.«105174_j53644141527286_1_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Decoder call 0: its arrays out of the core's buffers, and back -/

/-- The distinct buffers behind call 0's three windows: the shared operand matrix and the result. -/
theorem arrs0 : Finset.univ.image (Pipeline.arrRef spec0) = ({main_v46, main_v47} : Finset (Ref sig .tc)) := by decide

/-- ENTRY. The core's unscoped buffers at contents `V c` are call 0's arrays at the proof data's entry contents and the
    rest: the operand matrix, held whole, splits into the left half for window 0 and the right half for window 1 (both
    at the same contents); the result array goes to window 2 outright. -/
theorem entry0 (c : Dev nD) :
    (unscopedBufs c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [show (unscopedBufs c (V c) : sProp 𝕄) = iprop(Pipeline.arrBufs spec0 c (V c) ∗ Pipeline.unscopedRest spec0 c (V c))
    from Pipeline.unscopedBufs_split₀ cfgs 0 winFacts₀0.arr_unscoped c (V c)]
  refine sep_mono ?_ .rfl
  unfold Pipeline.arrBufs Dat.arrays
  rw [arrs0, bigSep_insert (by decide), bigSep_singleton, bigSep_W0]
  rw [(arr_whole0 0).set_eq_univ, (arr_whole0 2).set_eq_univ, share0_0, share0_1, share0_2]
  beta_reduce
  show iprop((((c.tc : Thread nD τ).loc main_v46) ↦{fullShare} V c main_v46) ∗ (((c.tc : Thread nD τ).loc main_v47) ↦{fullShare} V c main_v47)) ⊢ _
  iintro ⟨Hin, Hout⟩
  ihave H := (pointsTo_share (PosShare.mem_left_op_right fullShare)).1 $$ Hin
  icases H with ⟨Hl, Hr⟩
  isplitl [Hl]; · iexact Hl
  isplitl [Hr]; · iexact Hr
  iexact Hout

/-- EXIT. Call 0's arrays after the last write-back and the rest are the core's unscoped buffers at any contents `V'`
    that agree with the entry contents off the result array and hold, at the result array, what the write-backs
    left: an operand array is never written, so its two halves still hold the entry contents and join. -/
theorem exit0 (c : Dev nD) (V' : (b : Ref sig .tc) → Buf (Elt F) ((c : Thread nD τ).loc b))
    (hout : V' main_v47 = (dat0 V c).arrAt 2 cfg0.N)
    (hrest : ∀ b : Ref sig .tc, b ≠ main_v47 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c V' : sProp 𝕄) := by
  rw [show (unscopedBufs c V' : sProp 𝕄) = iprop(Pipeline.arrBufs spec0 c V' ∗ Pipeline.unscopedRest spec0 c V')
    from Pipeline.unscopedBufs_split₀ cfgs 0 winFacts₀0.arr_unscoped c V']
  refine sep_mono ?_ (Entails.of_eq ?_)
  · unfold Pipeline.arrBufs Dat.arrays
    rw [arrs0, bigSep_insert (by decide), bigSep_singleton, bigSep_W0]
    rw [(arr_whole0 0).set_eq_univ, (arr_whole0 2).set_eq_univ, share0_0, share0_1, share0_2]
    beta_reduce
    rw [(dat0 V c).arrAt_in 0 rfl, (dat0 V c).arrAt_in 1 rfl, hout, hrest main_v46 (by decide)]
    show _ ⊢ iprop((((c.tc : Thread nD τ).loc main_v46) ↦{fullShare} V c main_v46) ∗ (((c.tc : Thread nD τ).loc main_v47) ↦{fullShare} (dat0 V c).arrAt 2 cfg0.N))
    iintro ⟨Hl, Hr, Hout⟩
    isplitl [Hl Hr]
    · iapply (pointsTo_share (PosShare.mem_left_op_right fullShare)).2
      isplitl [Hl]; · iexact Hl
      iexact Hr
    iexact Hout
  · unfold Pipeline.unscopedRest
    refine bigSep_congr fun b hb => ?_
    rw [hrest b fun e => (Finset.mem_sdiff.mp hb).2 (by rw [arrs0, e]; decide)]

/-! ## Decoder call 1: its arrays out of the core's buffers, and back -/

/-- The distinct buffers behind call 1's three windows: the shared operand matrix and the result. -/
theorem arrs1 : Finset.univ.image (Pipeline.arrRef spec1) = ({main_v95, main_v96} : Finset (Ref sig .tc)) := by decide

/-- ENTRY. The core's unscoped buffers at contents `V c` are call 1's arrays at the proof data's entry contents and the
    rest: the operand matrix, held whole, splits into the left half for window 0 and the right half for window 1 (both
    at the same contents); the result array goes to window 2 outright. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [show (unscopedBufs c (V c) : sProp 𝕄) = iprop(Pipeline.arrBufs spec1 c (V c) ∗ Pipeline.unscopedRest spec1 c (V c))
    from Pipeline.unscopedBufs_split₀ cfgs 1 winFacts₀1.arr_unscoped c (V c)]
  refine sep_mono ?_ .rfl
  unfold Pipeline.arrBufs Dat.arrays
  rw [arrs1, bigSep_insert (by decide), bigSep_singleton, bigSep_W1]
  rw [(arr_whole1 0).set_eq_univ, (arr_whole1 2).set_eq_univ, share1_0, share1_1, share1_2]
  beta_reduce
  show iprop((((c.tc : Thread nD τ).loc main_v95) ↦{fullShare} V c main_v95) ∗ (((c.tc : Thread nD τ).loc main_v96) ↦{fullShare} V c main_v96)) ⊢ _
  iintro ⟨Hin, Hout⟩
  ihave H := (pointsTo_share (PosShare.mem_left_op_right fullShare)).1 $$ Hin
  icases H with ⟨Hl, Hr⟩
  isplitl [Hl]; · iexact Hl
  isplitl [Hr]; · iexact Hr
  iexact Hout

/-- EXIT. Call 1's arrays after the last write-back and the rest are the core's unscoped buffers at any contents `V'`
    that agree with the entry contents off the result array and hold, at the result array, what the write-backs
    left: an operand array is never written, so its two halves still hold the entry contents and join. -/
theorem exit1 (c : Dev nD) (V' : (b : Ref sig .tc) → Buf (Elt F) ((c : Thread nD τ).loc b))
    (hout : V' main_v96 = (dat1 V c).arrAt 2 cfg1.N)
    (hrest : ∀ b : Ref sig .tc, b ≠ main_v96 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [show (unscopedBufs c V' : sProp 𝕄) = iprop(Pipeline.arrBufs spec1 c V' ∗ Pipeline.unscopedRest spec1 c V')
    from Pipeline.unscopedBufs_split₀ cfgs 1 winFacts₀1.arr_unscoped c V']
  refine sep_mono ?_ (Entails.of_eq ?_)
  · unfold Pipeline.arrBufs Dat.arrays
    rw [arrs1, bigSep_insert (by decide), bigSep_singleton, bigSep_W1]
    rw [(arr_whole1 0).set_eq_univ, (arr_whole1 2).set_eq_univ, share1_0, share1_1, share1_2]
    beta_reduce
    rw [(dat1 V c).arrAt_in 0 rfl, (dat1 V c).arrAt_in 1 rfl, hout, hrest main_v95 (by decide)]
    show _ ⊢ iprop((((c.tc : Thread nD τ).loc main_v95) ↦{fullShare} V c main_v95) ∗ (((c.tc : Thread nD τ).loc main_v96) ↦{fullShare} (dat1 V c).arrAt 2 cfg1.N))
    iintro ⟨Hl, Hr, Hout⟩
    isplitl [Hl Hr]
    · iapply (pointsTo_share (PosShare.mem_left_op_right fullShare)).2
      isplitl [Hl]; · iexact Hl
      iexact Hr
    iexact Hout
  · unfold Pipeline.unscopedRest
    refine bigSep_congr fun b hb => ?_
    rw [hrest b fun e => (Finset.mem_sdiff.mp hb).2 (by rw [arrs1, e]; decide)]

end Regions

end Cert.Kernel.Hand

end
-- ==== Proof.KRegions.lean ====
/-
  The word-level program's run: @main as host stretches and the two decoder calls, from the launch to the return.

  Between two items of @main a core holds every unscoped buffer whole, at contents that are a fold from the launch memory:
  a host stretch applies its operations, a decoder call replaces its result array by what its write-backs leave and
  changes nothing else. Each call is entered by splitting its arrays out of those buffers and left by putting them
  back; the host stretches are the generated segments. Read at the end, every unscoped buffer holds the last
  contents of that fold: the arguments as launched (no item writes one), the results at the fold's values.
-/
import proofs.«105174_j53644141527286_1_alg».proof.Proof.KBody
import proofs.«105174_j53644141527286_1_alg».proof.Proof.KShare
import proofs.«105174_j53644141527286_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg) (outs : Outs (F := F))

/-- The buffers' contents when call 0, resp. call 1, is entered, read at the TensorCore's references. -/
abbrev Ve0 : (c : Dev nD) → (b : Ref sig .tc) → Buf (Elt F) ((c : Thread nD τ).loc b) := fun c b => V3 m c b
abbrev Ve1 : (c : Dev nD) → (b : Ref sig .tc) → Buf (Elt F) ((c : Thread nD τ).loc b) := fun c b => V7 m outs c b

/-- Every call's proof data, each at its entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m outs) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev Rst (c : Dev nD) : sProp 𝕄 := iprop((∃ r, prngReg c r) ∗ ∃ W, owes (c : Thread nD τ) (0 : CellTallies nD τ sig Unit) W)
abbrev Erest : Fin 3 → Dev nD → sProp 𝕄 := fun _ c => Rst c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- a library lemma stated over the pinned configuration unifies with the printed one only when unification may unfold
-- plain definitions in a metavariable's type
set_option backward.isDefEq.respectTransparency.types false in
/-- Decoder call 0 as a segment of @main: entered from every unscoped buffer at the contents before it, left with the
    result array at what the write-backs leave and every other buffer as entered. The generator register goes into the
    body's invariant and comes back; nothing is owed; the kernel has no semaphore of its own. -/
def reg0 (h4 : ∀ c, outs 4 main_v47 c = (dat0 (Ve0 m) c).arrAt 2 cfg0.N) :
    Pipeline.RegionSeg (pcfgs (F := F)) adm (pdats m outs) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V3 m c) ∗ Rst c)
  post c := iprop(StableHlo.held (c : Thread nD τ) (Pipeline.ucRefs τ sig) (V4 m outs c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := entry0 (Ve0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (Ve0 m) c (fun b => V4 m outs c b)
      (by show Function.update (V3 m c) _ _ _ = _; rw [Function.update_self]; exact h4 c)
      (fun b hb => V4_of m outs c b fun h => hb (List.mem_singleton.mp h))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Decoder call 1 as a segment of @main: entered from every unscoped buffer at the contents before it, left with the
    result array at what the write-backs leave and every other buffer as entered. The generator register goes into the
    body's invariant and comes back; nothing is owed; the kernel has no semaphore of its own. -/
def reg1 (h8 : ∀ c, outs 8 main_v96 c = (dat1 (Ve1 m outs) c).arrAt 2 cfg1.N) :
    Pipeline.RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (Ve1 m outs) c).loose
  hwaits := Pipeline.hwaits_of_owed_zero _ _ _ _ L lv 1 fun _ _ => rfl
  pre c := iprop(StableHlo.held (c : Thread nD τ) (Pipeline.ucRefs τ sig) (V7 m outs c) ∗ Rst c)
  post c := iprop(StableHlo.held (c : Thread nD τ) (Pipeline.ucRefs τ sig) (V8 m outs c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m outs c)
  hentry c := by
    rw [Pipeline.ownSems0_none]
    have hsplit := entry1 (Ve1 m outs) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (Ve1 m outs) c (fun b => V8 m outs c b)
      (by show Function.update (V7 m outs c) _ _ _ = _; rw [Function.update_self]; exact h8 c)
      (fun b hb => V8_of m outs c b fun h => hb (List.mem_singleton.mp h))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

-- the launch theorem's implicit arguments are found by unifying its conclusion with this one, which takes unfolding
-- plain definitions in a metavariable's type
set_option backward.isDefEq.respectTransparency.types false in
/-- THE RUN. If `outs` names what the two calls leave in their result arrays, every weakly fair execution of @main from
    memory `m` with zero counters terminates, and in every final memory each unscoped buffer of each core holds the last
    contents `V9 m outs c` of the fold. -/
theorem run_all (h4 : ∀ c, outs 4 main_v47 c = (dat0 (Ve0 m) c).arrAt 2 cfg0.N)
    (h8 : ∀ c, outs 8 main_v96 c = (dat1 (Ve1 m outs) c).arrAt 2 cfg1.N) :
    θ_run defs (onTc (τ := τ) (main (F := F))) ⟨m, fun _ => 0, ρ⟩
      (fun r => ∀ c : Dev nD, ∀ b ∈ Pipeline.ucRefs τ sig, r.2.mem (((c : Thread nD τ)).1, b) = V9 m outs c b) := by
  refine Pipeline.θ_run_regions_kit_dev (pcfgs (F := F)) adm (pdats m outs) () cellOf_inj emb₁ defs₀ 𝒱₀ L lv m ρ main
    (segs m outs 𝒱₀ L lv Erest () (pdats m outs) (reg0 m outs h4) (reg1 m outs h8))
    (fun c Q => by
      rewrite [main_chain c, Seg.run_eq_chain,
        show (segs m outs 𝒱₀ L lv Erest () (pdats m outs) (reg0 m outs h4) (reg1 m outs h8) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V9 m outs c))
    (hch := fun c => ⟨.rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m outs c b)
    (hfin := fun c s' => by
      iintro ⟨Hh, HSI⟩
      unfold StableHlo.held
      imodintro
      iapply (pointsTo_read_all (Pipeline.ucRefs τ sig) (fun b => (((c : Thread nD τ)).1, b)) (V9 m outs c) s')
      isplitl [Hh] <;> iassumption)
    (hQ := fun _ h => h)

/-- THE FRAME: every argument array ends as launched — no host stretch writes one and no call may change one, so the
    fold's last contents at an argument walk back to the launch memory. -/
theorem frame_of_run (h4 : ∀ c, outs 4 main_v47 c = (dat0 (Ve0 m) c).arrAt 2 cfg0.N)
    (h8 : ∀ c, outs 8 main_v96 c = (dat1 (Ve1 m outs) c).arrAt 2 cfg1.N) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (V9_main_arg0 m outs c),
     (h c _ (mem_uc main_arg1 (by decide))).trans (V9_main_arg1 m outs c),
     (h c _ (mem_uc main_arg2 (by decide))).trans (V9_main_arg2 m outs c),
     (h c _ (mem_uc main_arg3 (by decide))).trans (V9_main_arg3 m outs c),
     (h c _ (mem_uc main_arg4 (by decide))).trans (V9_main_arg4 m outs c),
     (h c _ (mem_uc main_arg5 (by decide))).trans (V9_main_arg5 m outs c),
     (h c _ (mem_uc main_arg6 (by decide))).trans (V9_main_arg6 m outs c),
     (h c _ (mem_uc main_arg7 (by decide))).trans (V9_main_arg7 m outs c),
     (h c _ (mem_uc main_arg8 (by decide))).trans (V9_main_arg8 m outs c),
     (h c _ (mem_uc main_arg9 (by decide))).trans (V9_main_arg9 m outs c),
     (h c _ (mem_uc main_arg10 (by decide))).trans (V9_main_arg10 m outs c),
     (h c _ (mem_uc main_arg11 (by decide))).trans (V9_main_arg11 m outs c),
     (h c _ (mem_uc main_arg12 (by decide))).trans (V9_main_arg12 m outs c),
     (h c _ (mem_uc main_arg13 (by decide))).trans (V9_main_arg13 m outs c),
     (h c _ (mem_uc main_arg14 (by decide))).trans (V9_main_arg14 m outs c),
     (h c _ (mem_uc main_arg15 (by decide))).trans (V9_main_arg15 m outs c),
     (h c _ (mem_uc main_arg16 (by decide))).trans (V9_main_arg16 m outs c),
     (h c _ (mem_uc main_arg17 (by decide))).trans (V9_main_arg17 m outs c)⟩)
    (run_all m ρ outs h4 h8)

/-! ## What the calls leave: a choice of `outs` -/

/-- What call 0 leaves in its result array, from the launch memory. -/
def outA (c : Dev nD) : Buf (Elt F) ((c : Thread nD τ).loc main_v47) := (dat0 (Ve0 m) c).arrAt 2 cfg0.N
/-- The contents between items with call 0's result filled in (call 1's not yet named). -/
def outsA : Outs (F := F) := fun _ r c => Function.update (V3 m c) main_v47 (outA m c) r
theorem outsA_4 (c : Dev nD) : outsA m 4 main_v47 c = outA m c := by
  unfold outsA; rw [Function.update_self]
/-- What call 1 leaves in its result array. -/
def outB (c : Dev nD) : Buf (Elt F) ((c : Thread nD τ).loc main_v96) := (dat1 (Ve1 m (outsA m)) c).arrAt 2 cfg1.N
/-- Both calls' results filled in. -/
def outsB : Outs (F := F) := fun J r c => if J = 8 then Function.update (V7 m (outsA m) c) main_v96 (outB m c) r else outsA m J r c
theorem outsB_4 (c : Dev nD) : outsB m 4 main_v47 c = (dat0 (Ve0 m) c).arrAt 2 cfg0.N := by
  unfold outsB; rw [if_neg (by decide)]; exact outsA_4 m c
theorem V4_outsB (c : Dev nD) : V4 m (outsB m) c = V4 m (outsA m) c := by
  show Function.update (V3 m c) _ (outsB m 4 main_v47 c) = Function.update (V3 m c) _ (outsA m 4 main_v47 c)
  rw [outsB_4, outsA_4]; rfl
theorem V7_outsB (c : Dev nD) : V7 m (outsB m) c = V7 m (outsA m) c := by
  show StableHlo.after hostOps1_2 (StableHlo.after hostOps1_1 (StableHlo.after hostOps1 (V4 m (outsB m) c))) = _
  rw [V4_outsB]
theorem Ve1_outsB : Ve1 m (outsB m) = Ve1 m (outsA m) :=
  funext fun c => funext fun b => by show V7 m (outsB m) c b = V7 m (outsA m) c b; rw [V7_outsB]
theorem outsB_8 (c : Dev nD) : outsB m 8 main_v96 c = (dat1 (Ve1 m (outsB m)) c).arrAt 2 cfg1.N := by
  rw [Ve1_outsB]; unfold outsB; rw [if_pos rfl, Function.update_self]; rfl

end Cert.Kernel.Hand

end
-- ==== Proof.KIData.lean ====
/-
  The two decoder calls of the idealized program: what each grid point reads and writes.

  Each call runs one body on a 4 × 4 grid. At point (i, j) the body reads band i (rows 2048·i … 2048·i + 2047) and band j
  of ONE [8192, 16] matrix z — the same array is handed to the call twice, once per operand window — and stores the
  2048 × 2048 product band_i · band_jᵀ as tile (i, j) of the [8192, 8192] result. This module names those blocks and the
  stored tile, and states the proof data of both calls at a parameter `V`, the contents of the core's buffers when the
  call is entered.
-/
import proofs.«105174_j53644141527286_1_alg».proof.Proof.Gen.KernelIdeal.Launch
import proofs.«105174_j53644141527286_1_alg».proof.Proof.Gen.KernelIdeal.Skeleton
import proofs.«105174_j53644141527286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole [2048, 16] operand buffer and the whole [2048, 2048] result buffer, as the body's loads and its store address them. -/
abbrev rIn : Rect S2048x16 := Rect.unit (s := S2048x16) ![0, 0] S2048x16.size inb_S2048x16_S2048x16_0_0
abbrev rOut : Rect S2048x2048 := Rect.unit (s := S2048x2048) ![0, 0] S2048x2048.size inb_S2048x2048_S2048x2048_0_0

section Regions
variable (V : (c : Dev nD) → (b : Ref sig .tc) → Buf (Elt F) ((c : Thread nD τ).loc b))

/-! ## Decoder call 0: blocks, the stored block, the proof data -/

/-- Window `w`'s block at grid point `t`, read off its array as the region finds it (`V`): for the two operand
    windows a band of 2048 rows of the one [8192, 16] matrix they share, for the result window a 2048 × 2048 tile. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the result window's buffer: its single whole-buffer store of the product `A · Bᵀ` of the two
    operand bands (into the zero accumulator), as the one piece that tiles the buffer. -/
def out0_2 (x0 x1 : Vec F S2048x16 .bf16) : Vec F S2048x2048 .f32 :=
  View.canon [⟨rOut, k0_pay1 (View.ld x0 rIn) (View.ld x1 rIn)⟩]

/-- The proof data of decoder call 0 on core `c`: the arrays as the region finds them; after the body each operand
    window's buffer still at its band, the result window's at the product of the two bands; the invariant is the part
    of the core's state the body never touches; nothing owed. The two operand windows read ONE array, so each holds half
    of it (the left and the right half of the full share); the result window's array is held outright. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem share0_0 (c : Dev nD) : (dat0 V c).share 0 = fullShare.left := by
  unfold Dat.share; rw [if_neg (by decide)]; dsimp only [dat0]
theorem share0_1 (c : Dev nD) : (dat0 V c).share 1 = fullShare.right := by
  unfold Dat.share; rw [if_neg (by decide)]; dsimp only [dat0]
theorem share0_2 (c : Dev nD) : (dat0 V c).share 2 = fullShare := by
  unfold Dat.share; rw [if_pos (by decide)]

/-! ## Decoder call 1: blocks, the stored block, the proof data -/

/-- Window `w`'s block at grid point `t`, read off its array as the region finds it (`V`): for the two operand
    windows a band of 2048 rows of the one [8192, 16] matrix they share, for the result window a 2048 × 2048 tile. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the result window's buffer: its single whole-buffer store of the product `A · Bᵀ` of the two
    operand bands (into the zero accumulator), as the one piece that tiles the buffer. -/
def out1_2 (x0 x1 : Vec F S2048x16 .bf16) : Vec F S2048x2048 .f32 :=
  View.canon [⟨rOut, k1_pay1 (View.ld x0 rIn) (View.ld x1 rIn)⟩]

/-- The proof data of decoder call 1 on core `c`: the arrays as the region finds them; after the body each operand
    window's buffer still at its band, the result window's at the product of the two bands; the invariant is the part
    of the core's state the body never touches; nothing owed. The two operand windows read ONE array, so each holds half
    of it (the left and the right half of the full share); the result window's array is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem share1_0 (c : Dev nD) : (dat1 V c).share 0 = fullShare.left := by
  unfold Dat.share; rw [if_neg (by decide)]; dsimp only [dat1]
theorem share1_1 (c : Dev nD) : (dat1 V c).share 1 = fullShare.right := by
  unfold Dat.share; rw [if_neg (by decide)]; dsimp only [dat1]
theorem share1_2 (c : Dev nD) : (dat1 V c).share 2 = fullShare := by
  unfold Dat.share; rw [if_pos (by decide)]

end Regions

end Cert.KernelIdeal.Hand

end
-- ==== Proof.KIBody.lean ====
/-
  The two decoder calls of the idealized program: the body at a grid point.

  The body loads its two operand buffers whole, multiplies (band · bandᵀ into zeros) and stores the product over the whole
  result buffer. So whatever the result buffer held, it ends at the product of the two operand buffers' contents, and
  the operand buffers are unchanged. With each operand buffer holding its band at every point, this is the pipeline's
  obligation for the body.
-/
import proofs.«105174_j53644141527286_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one store addresses the whole result buffer, so it covers it. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

section Regions
variable (V : (c : Dev nD) → (b : Ref sig .tc) → Buf (Elt F) ((c : Thread nD τ).loc b))

/-! ## Decoder call 0 -/

set_option maxHeartbeats 1000000 in
/-- The body on whole staging buffers — the operands' at contents `x0`, `x1`, the result's at anything — runs to the
    continuation with the operands' buffers as they were and the result's at the product `out0_2 x0 x1`: two loads, a
    load of the old result that is never used, one store that covers the buffer. -/
theorem sound_kernel0 (c : Dev nD) (E : Set ℕ) (i : grid0.Coords)
    (arg2 : Memref sig .tc .vmem S2048x16 .bf16) (harg2 : arg2.IsWhole)
    (arg3 : Memref sig .tc .vmem S2048x16 .bf16) (harg3 : arg3.IsWhole)
    (arg4 : Memref sig .tc .vmem S2048x2048 .f32) (harg4 : arg4.IsWhole)
    (x0 x1 : Vec F S2048x16 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__decoder_kernel i arg2 harg2 arg3 harg3 arg4 harg4) K := by
  simp only [cc0__decoder_kernel_eq_skeleton]; unfold cc0__decoder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- An operand window's current staging buffer holds its band at every point, fetched there or not: where the pipeline
    does not fetch, the band's index has not moved and the body left the band in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operand buffers hold their bands, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of decoder call 0, at every point. -/
theorem body_obligation0 (c : Dev nD) : BodyObligation (dat0 (F := F) V c) (defs₀ (F := F)) Variants.none () Set.univ := fun t => by
  rw [bigSep_W0, bigSep_W0]
  exact sound_body0 V c t

/-! ## Decoder call 1 -/

set_option maxHeartbeats 1000000 in
/-- The body on whole staging buffers — the operands' at contents `x0`, `x1`, the result's at anything — runs to the
    continuation with the operands' buffers as they were and the result's at the product `out1_2 x0 x1`: two loads, a
    load of the old result that is never used, one store that covers the buffer. -/
theorem sound_kernel1 (c : Dev nD) (E : Set ℕ) (i : grid1.Coords)
    (arg2 : Memref sig .tc .vmem S2048x16 .bf16) (harg2 : arg2.IsWhole)
    (arg3 : Memref sig .tc .vmem S2048x16 .bf16) (harg3 : arg3.IsWhole)
    (arg4 : Memref sig .tc .vmem S2048x2048 .f32) (harg4 : arg4.IsWhole)
    (x0 x1 : Vec F S2048x16 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__decoder_kernel i arg2 harg2 arg3 harg3 arg4 harg4) K := by
  simp only [cc1__decoder_kernel_eq_skeleton]; unfold cc1__decoder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- An operand window's current staging buffer holds its band at every point, fetched there or not: where the pipeline
    does not fetch, the band's index has not moved and the body left the band in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operand buffers hold their bands, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of decoder call 1, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIShare.lean ====
/-
  The two decoder calls of the idealized program: entering and leaving a call whose two operand windows read ONE array.

  A call is entered holding every unscoped buffer of the core whole. Its three windows name only two distinct buffers:
  the operand matrix (twice) and the result. The operand matrix is only ever read, so it is enough for each operand
  window to hold half of it; the two halves hold the same contents throughout, and join again when the call is left.
  The result array is held outright and ends at what the write-backs leave.
-/
import proofs.«105174_j53644141527286_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Decoder call 0: its arrays out of the core's buffers, and back -/

/-- The distinct buffers behind call 0's three windows: the shared operand matrix and the result. -/
theorem arrs0 : Finset.univ.image (Pipeline.arrRef spec0) = ({main_v46, main_v47} : Finset (Ref sig .tc)) := by decide

/-- ENTRY. The core's unscoped buffers at contents `V c` are call 0's arrays at the proof data's entry contents and the
    rest: the operand matrix, held whole, splits into the left half for window 0 and the right half for window 1 (both
    at the same contents); the result array goes to window 2 outright. -/
theorem entry0 (c : Dev nD) :
    (unscopedBufs c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [show (unscopedBufs c (V c) : sProp 𝕄) = iprop(Pipeline.arrBufs spec0 c (V c) ∗ Pipeline.unscopedRest spec0 c (V c))
    from Pipeline.unscopedBufs_split₀ cfgs 0 winFacts₀0.arr_unscoped c (V c)]
  refine sep_mono ?_ .rfl
  unfold Pipeline.arrBufs Dat.arrays
  rw [arrs0, bigSep_insert (by decide), bigSep_singleton, bigSep_W0]
  rw [(arr_whole0 0).set_eq_univ, (arr_whole0 2).set_eq_univ, share0_0, share0_1, share0_2]
  beta_reduce
  show iprop((((c.tc : Thread nD τ).loc main_v46) ↦{fullShare} V c main_v46) ∗ (((c.tc : Thread nD τ).loc main_v47) ↦{fullShare} V c main_v47)) ⊢ _
  iintro ⟨Hin, Hout⟩
  ihave H := (pointsTo_share (PosShare.mem_left_op_right fullShare)).1 $$ Hin
  icases H with ⟨Hl, Hr⟩
  isplitl [Hl]; · iexact Hl
  isplitl [Hr]; · iexact Hr
  iexact Hout

/-- EXIT. Call 0's arrays after the last write-back and the rest are the core's unscoped buffers at any contents `V'`
    that agree with the entry contents off the result array and hold, at the result array, what the write-backs
    left: an operand array is never written, so its two halves still hold the entry contents and join. -/
theorem exit0 (c : Dev nD) (V' : (b : Ref sig .tc) → Buf (Elt F) ((c : Thread nD τ).loc b))
    (hout : V' main_v47 = (dat0 V c).arrAt 2 cfg0.N)
    (hrest : ∀ b : Ref sig .tc, b ≠ main_v47 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c V' : sProp 𝕄) := by
  rw [show (unscopedBufs c V' : sProp 𝕄) = iprop(Pipeline.arrBufs spec0 c V' ∗ Pipeline.unscopedRest spec0 c V')
    from Pipeline.unscopedBufs_split₀ cfgs 0 winFacts₀0.arr_unscoped c V']
  refine sep_mono ?_ (Entails.of_eq ?_)
  · unfold Pipeline.arrBufs Dat.arrays
    rw [arrs0, bigSep_insert (by decide), bigSep_singleton, bigSep_W0]
    rw [(arr_whole0 0).set_eq_univ, (arr_whole0 2).set_eq_univ, share0_0, share0_1, share0_2]
    beta_reduce
    rw [(dat0 V c).arrAt_in 0 rfl, (dat0 V c).arrAt_in 1 rfl, hout, hrest main_v46 (by decide)]
    show _ ⊢ iprop((((c.tc : Thread nD τ).loc main_v46) ↦{fullShare} V c main_v46) ∗ (((c.tc : Thread nD τ).loc main_v47) ↦{fullShare} (dat0 V c).arrAt 2 cfg0.N))
    iintro ⟨Hl, Hr, Hout⟩
    isplitl [Hl Hr]
    · iapply (pointsTo_share (PosShare.mem_left_op_right fullShare)).2
      isplitl [Hl]; · iexact Hl
      iexact Hr
    iexact Hout
  · unfold Pipeline.unscopedRest
    refine bigSep_congr fun b hb => ?_
    rw [hrest b fun e => (Finset.mem_sdiff.mp hb).2 (by rw [arrs0, e]; decide)]

/-! ## Decoder call 1: its arrays out of the core's buffers, and back -/

/-- The distinct buffers behind call 1's three windows: the shared operand matrix and the result. -/
theorem arrs1 : Finset.univ.image (Pipeline.arrRef spec1) = ({main_v95, main_v96} : Finset (Ref sig .tc)) := by decide

/-- ENTRY. The core's unscoped buffers at contents `V c` are call 1's arrays at the proof data's entry contents and the
    rest: the operand matrix, held whole, splits into the left half for window 0 and the right half for window 1 (both
    at the same contents); the result array goes to window 2 outright. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [show (unscopedBufs c (V c) : sProp 𝕄) = iprop(Pipeline.arrBufs spec1 c (V c) ∗ Pipeline.unscopedRest spec1 c (V c))
    from Pipeline.unscopedBufs_split₀ cfgs 1 winFacts₀1.arr_unscoped c (V c)]
  refine sep_mono ?_ .rfl
  unfold Pipeline.arrBufs Dat.arrays
  rw [arrs1, bigSep_insert (by decide), bigSep_singleton, bigSep_W1]
  rw [(arr_whole1 0).set_eq_univ, (arr_whole1 2).set_eq_univ, share1_0, share1_1, share1_2]
  beta_reduce
  show iprop((((c.tc : Thread nD τ).loc main_v95) ↦{fullShare} V c main_v95) ∗ (((c.tc : Thread nD τ).loc main_v96) ↦{fullShare} V c main_v96)) ⊢ _
  iintro ⟨Hin, Hout⟩
  ihave H := (pointsTo_share (PosShare.mem_left_op_right fullShare)).1 $$ Hin
  icases H with ⟨Hl, Hr⟩
  isplitl [Hl]; · iexact Hl
  isplitl [Hr]; · iexact Hr
  iexact Hout

/-- EXIT. Call 1's arrays after the last write-back and the rest are the core's unscoped buffers at any contents `V'`
    that agree with the entry contents off the result array and hold, at the result array, what the write-backs
    left: an operand array is never written, so its two halves still hold the entry contents and join. -/
theorem exit1 (c : Dev nD) (V' : (b : Ref sig .tc) → Buf (Elt F) ((c : Thread nD τ).loc b))
    (hout : V' main_v96 = (dat1 V c).arrAt 2 cfg1.N)
    (hrest : ∀ b : Ref sig .tc, b ≠ main_v96 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [show (unscopedBufs c V' : sProp 𝕄) = iprop(Pipeline.arrBufs spec1 c V' ∗ Pipeline.unscopedRest spec1 c V')
    from Pipeline.unscopedBufs_split₀ cfgs 1 winFacts₀1.arr_unscoped c V']
  refine sep_mono ?_ (Entails.of_eq ?_)
  · unfold Pipeline.arrBufs Dat.arrays
    rw [arrs1, bigSep_insert (by decide), bigSep_singleton, bigSep_W1]
    rw [(arr_whole1 0).set_eq_univ, (arr_whole1 2).set_eq_univ, share1_0, share1_1, share1_2]
    beta_reduce
    rw [(dat1 V c).arrAt_in 0 rfl, (dat1 V c).arrAt_in 1 rfl, hout, hrest main_v95 (by decide)]
    show _ ⊢ iprop((((c.tc : Thread nD τ).loc main_v95) ↦{fullShare} V c main_v95) ∗ (((c.tc : Thread nD τ).loc main_v96) ↦{fullShare} (dat1 V c).arrAt 2 cfg1.N))
    iintro ⟨Hl, Hr, Hout⟩
    isplitl [Hl Hr]
    · iapply (pointsTo_share (PosShare.mem_left_op_right fullShare)).2
      isplitl [Hl]; · iexact Hl
      iexact Hr
    iexact Hout
  · unfold Pipeline.unscopedRest
    refine bigSep_congr fun b hb => ?_
    rw [hrest b fun e => (Finset.mem_sdiff.mp hb).2 (by rw [arrs1, e]; decide)]

end Regions

end Cert.KernelIdeal.Hand

end
-- ==== Proof.KIRegions.lean ====
/-
  The idealized program's run: @main as host stretches and the two decoder calls, from the launch to the return.

  Between two items of @main a core holds every unscoped buffer whole, at contents that are a fold from the launch memory:
  a host stretch applies its operations, a decoder call replaces its result array by what its write-backs leave and
  changes nothing else. Each call is entered by splitting its arrays out of those buffers and left by putting them
  back; the host stretches are the generated segments. Read at the end, every unscoped buffer holds the last
  contents of that fold: the arguments as launched (no item writes one), the results at the fold's values.
-/
import proofs.«105174_j53644141527286_1_alg».proof.Proof.KIBody
import proofs.«105174_j53644141527286_1_alg».proof.Proof.KIShare
import proofs.«105174_j53644141527286_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg) (outs : Outs (F := F))

/-- The buffers' contents when call 0, resp. call 1, is entered, read at the TensorCore's references. -/
abbrev Ve0 : (c : Dev nD) → (b : Ref sig .tc) → Buf (Elt F) ((c : Thread nD τ).loc b) := fun c b => V3 m c b
abbrev Ve1 : (c : Dev nD) → (b : Ref sig .tc) → Buf (Elt F) ((c : Thread nD τ).loc b) := fun c b => V7 m outs c b

/-- Every call's proof data, each at its entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m outs) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev Rst (c : Dev nD) : sProp 𝕄 := iprop((∃ r, prngReg c r) ∗ ∃ W, owes (c : Thread nD τ) (0 : CellTallies nD τ sig Unit) W)
abbrev Erest : Fin 3 → Dev nD → sProp 𝕄 := fun _ c => Rst c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- a library lemma stated over the pinned configuration unifies with the printed one only when unification may unfold
-- plain definitions in a metavariable's type
set_option backward.isDefEq.respectTransparency.types false in
/-- Decoder call 0 as a segment of @main: entered from every unscoped buffer at the contents before it, left with the
    result array at what the write-backs leave and every other buffer as entered. The generator register goes into the
    body's invariant and comes back; nothing is owed; the kernel has no semaphore of its own. -/
def reg0 (h4 : ∀ c, outs 4 main_v47 c = (dat0 (Ve0 m) c).arrAt 2 cfg0.N) :
    Pipeline.RegionSeg (pcfgs (F := F)) adm (pdats m outs) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V3 m c) ∗ Rst c)
  post c := iprop(StableHlo.held (c : Thread nD τ) (Pipeline.ucRefs τ sig) (V4 m outs c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := entry0 (Ve0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (Ve0 m) c (fun b => V4 m outs c b)
      (by show Function.update (V3 m c) _ _ _ = _; rw [Function.update_self]; exact h4 c)
      (fun b hb => V4_of m outs c b fun h => hb (List.mem_singleton.mp h))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Decoder call 1 as a segment of @main: entered from every unscoped buffer at the contents before it, left with the
    result array at what the write-backs leave and every other buffer as entered. The generator register goes into the
    body's invariant and comes back; nothing is owed; the kernel has no semaphore of its own. -/
def reg1 (h8 : ∀ c, outs 8 main_v96 c = (dat1 (Ve1 m outs) c).arrAt 2 cfg1.N) :
    Pipeline.RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (Ve1 m outs) c).loose
  hwaits := Pipeline.hwaits_of_owed_zero _ _ _ _ L lv 1 fun _ _ => rfl
  pre c := iprop(StableHlo.held (c : Thread nD τ) (Pipeline.ucRefs τ sig) (V7 m outs c) ∗ Rst c)
  post c := iprop(StableHlo.held (c : Thread nD τ) (Pipeline.ucRefs τ sig) (V8 m outs c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m outs c)
  hentry c := by
    rw [Pipeline.ownSems0_none]
    have hsplit := entry1 (Ve1 m outs) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (Ve1 m outs) c (fun b => V8 m outs c b)
      (by show Function.update (V7 m outs c) _ _ _ = _; rw [Function.update_self]; exact h8 c)
      (fun b hb => V8_of m outs c b fun h => hb (List.mem_singleton.mp h))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

-- the launch theorem's implicit arguments are found by unifying its conclusion with this one, which takes unfolding
-- plain definitions in a metavariable's type
set_option backward.isDefEq.respectTransparency.types false in
/-- THE RUN. If `outs` names what the two calls leave in their result arrays, every weakly fair execution of @main from
    memory `m` with zero counters terminates, and in every final memory each unscoped buffer of each core holds the last
    contents `V9 m outs c` of the fold. -/
theorem run_all (h4 : ∀ c, outs 4 main_v47 c = (dat0 (Ve0 m) c).arrAt 2 cfg0.N)
    (h8 : ∀ c, outs 8 main_v96 c = (dat1 (Ve1 m outs) c).arrAt 2 cfg1.N) :
    θ_run defs (onTc (τ := τ) (main (F := F))) ⟨m, fun _ => 0, ρ⟩
      (fun r => ∀ c : Dev nD, ∀ b ∈ Pipeline.ucRefs τ sig, r.2.mem (((c : Thread nD τ)).1, b) = V9 m outs c b) := by
  refine Pipeline.θ_run_regions_kit_dev (pcfgs (F := F)) adm (pdats m outs) () cellOf_inj emb₁ defs₀ 𝒱₀ L lv m ρ main
    (segs m outs 𝒱₀ L lv Erest () (pdats m outs) (reg0 m outs h4) (reg1 m outs h8))
    (fun c Q => by
      rewrite [main_chain c, Seg.run_eq_chain,
        show (segs m outs 𝒱₀ L lv Erest () (pdats m outs) (reg0 m outs h4) (reg1 m outs h8) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V9 m outs c))
    (hch := fun c => ⟨.rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m outs c b)
    (hfin := fun c s' => by
      iintro ⟨Hh, HSI⟩
      unfold StableHlo.held
      imodintro
      iapply (pointsTo_read_all (Pipeline.ucRefs τ sig) (fun b => (((c : Thread nD τ)).1, b)) (V9 m outs c) s')
      isplitl [Hh] <;> iassumption)
    (hQ := fun _ h => h)

/-- THE FRAME: every argument array ends as launched — no host stretch writes one and no call may change one, so the
    fold's last contents at an argument walk back to the launch memory. -/
theorem frame_of_run (h4 : ∀ c, outs 4 main_v47 c = (dat0 (Ve0 m) c).arrAt 2 cfg0.N)
    (h8 : ∀ c, outs 8 main_v96 c = (dat1 (Ve1 m outs) c).arrAt 2 cfg1.N) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (V9_main_arg0 m outs c),
     (h c _ (mem_uc main_arg1 (by decide))).trans (V9_main_arg1 m outs c),
     (h c _ (mem_uc main_arg2 (by decide))).trans (V9_main_arg2 m outs c),
     (h c _ (mem_uc main_arg3 (by decide))).trans (V9_main_arg3 m outs c),
     (h c _ (mem_uc main_arg4 (by decide))).trans (V9_main_arg4 m outs c),
     (h c _ (mem_uc main_arg5 (by decide))).trans (V9_main_arg5 m outs c),
     (h c _ (mem_uc main_arg6 (by decide))).trans (V9_main_arg6 m outs c),
     (h c _ (mem_uc main_arg7 (by decide))).trans (V9_main_arg7 m outs c),
     (h c _ (mem_uc main_arg8 (by decide))).trans (V9_main_arg8 m outs c),
     (h c _ (mem_uc main_arg9 (by decide))).trans (V9_main_arg9 m outs c),
     (h c _ (mem_uc main_arg10 (by decide))).trans (V9_main_arg10 m outs c),
     (h c _ (mem_uc main_arg11 (by decide))).trans (V9_main_arg11 m outs c),
     (h c _ (mem_uc main_arg12 (by decide))).trans (V9_main_arg12 m outs c),
     (h c _ (mem_uc main_arg13 (by decide))).trans (V9_main_arg13 m outs c),
     (h c _ (mem_uc main_arg14 (by decide))).trans (V9_main_arg14 m outs c),
     (h c _ (mem_uc main_arg15 (by decide))).trans (V9_main_arg15 m outs c),
     (h c _ (mem_uc main_arg16 (by decide))).trans (V9_main_arg16 m outs c),
     (h c _ (mem_uc main_arg17 (by decide))).trans (V9_main_arg17 m outs c)⟩)
    (run_all m ρ outs h4 h8)

/-! ## What the calls leave: a choice of `outs` -/

/-- What call 0 leaves in its result array, from the launch memory. -/
def outA (c : Dev nD) : Buf (Elt F) ((c : Thread nD τ).loc main_v47) := (dat0 (Ve0 m) c).arrAt 2 cfg0.N
/-- The contents between items with call 0's result filled in (call 1's not yet named). -/
def outsA : Outs (F := F) := fun _ r c => Function.update (V3 m c) main_v47 (outA m c) r
theorem outsA_4 (c : Dev nD) : outsA m 4 main_v47 c = outA m c := by
  unfold outsA; rw [Function.update_self]
/-- What call 1 leaves in its result array. -/
def outB (c : Dev nD) : Buf (Elt F) ((c : Thread nD τ).loc main_v96) := (dat1 (Ve1 m (outsA m)) c).arrAt 2 cfg1.N
/-- Both calls' results filled in. -/
def outsB : Outs (F := F) := fun J r c => if J = 8 then Function.update (V7 m (outsA m) c) main_v96 (outB m c) r else outsA m J r c
theorem outsB_4 (c : Dev nD) : outsB m 4 main_v47 c = (dat0 (Ve0 m) c).arrAt 2 cfg0.N := by
  unfold outsB; rw [if_neg (by decide)]; exact outsA_4 m c
theorem V4_outsB (c : Dev nD) : V4 m (outsB m) c = V4 m (outsA m) c := by
  show Function.update (V3 m c) _ (outsB m 4 main_v47 c) = Function.update (V3 m c) _ (outsA m 4 main_v47 c)
  rw [outsB_4, outsA_4]; rfl
theorem V7_outsB (c : Dev nD) : V7 m (outsB m) c = V7 m (outsA m) c := by
  show StableHlo.after hostOps1_2 (StableHlo.after hostOps1_1 (StableHlo.after hostOps1 (V4 m (outsB m) c))) = _
  rw [V4_outsB]
theorem Ve1_outsB : Ve1 m (outsB m) = Ve1 m (outsA m) :=
  funext fun c => funext fun b => by show V7 m (outsB m) c b = V7 m (outsA m) c b; rw [V7_outsB]
theorem outsB_8 (c : Dev nD) : outsB m 8 main_v96 c = (dat1 (Ve1 m (outsB m)) c).arrAt 2 cfg1.N := by
  rw [Ve1_outsB]; unfold outsB; rw [if_pos rfl, Function.update_self]; rfl

end Cert.KernelIdeal.Hand

end
-- ==== Proof.HostChain.lean ====
/- The host operations of the kernel program, read against the reference's stage functions.
   Between the two kernel regions the kernel program applies to its arguments the same host operations, in the same
   order, as the reference does: a dense projection, a gather, a weighting, a scatter-add, a rectifier, two further
   projections each gathered, weighted and scatter-added, an exponential, a product and a sum. Each lemma below names
   what one unscoped buffer holds at one of the valuations between the program's items as the reference's value of the
   same buffer at the same arguments; the two square results are the host's reshape of whatever the regions leave. -/
import proofs.«105174_j53644141527286_1_alg».proof.Proof.Gen.KernelIdeal.Regions
import proofs.«105174_j53644141527286_1_alg».proof.Proof.Gen.ReferenceIdeal.Read

set_option maxRecDepth 1128

noncomputable section

namespace Cert.KernelIdeal.HostChain

open Idealize.ShloMosaic Idealize.ShloMosaic.TcCoe Cert.KernelIdeal Cert.KernelIdeal.Gen

variable {F : FTy → Type} [FloatOps F]
variable (m : (ℓ : Loc nD τ sig) → Buf (Elt F) ℓ) (outs : Outs (F := F)) (c : Dev nD)

/-- The first result: the host reshapes what region 0 leaves in its output array. -/
theorem out0 : V9 m outs c main_v48 = shapeCast _ (outs 4 main_v47 c) shapeCasts_S8192x8192_S67108864 := by
  rw [V9_of m outs c main_v48 (by decide), V8_of m outs c main_v48 (by decide), V7_of m outs c main_v48 (by decide), V6_of m outs c main_v48 (by decide)]
  show StableHlo.after hostOps1 (V4 m outs c) (Proc.devRef .tc main_v48) = _
  after_results
  rw [show V4 m outs c (Proc.devRef .tc main_v47) = outs 4 main_v47 c from Function.update_self ..]
  rfl

/-- The second result: the host reshapes what region 1 leaves in its output array. -/
theorem out1 : V9 m outs c main_v97 = shapeCast _ (outs 8 main_v96 c) shapeCasts_S8192x8192_S67108864 := by
  show StableHlo.after hostOps2 (V8 m outs c) (Proc.devRef .tc main_v97) = _
  after_results
  rw [show V8 m outs c (Proc.devRef .tc main_v96) = outs 8 main_v96 c from Function.update_self ..]
  rfl

set_option maxHeartbeats 2000000 in
/-- Branch 1, up to the first scatter-add: the projection of the features gathered along the edges' sources, weighted by
    the edges, and added up at the edges' targets. -/
theorem v13 : V1 m c main_v13 = Cert.ReferenceIdeal.Read.val_main_v13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) := by
  show StableHlo.after hostOps0 (V0 m c) (Proc.devRef .tc main_v13) = _
  after_results_simp
  rfl

/-- Branch 1, the rectifier applied to the first scatter-add. -/
theorem v14 : V2 m c main_v14 = Cert.ReferenceIdeal.Read.val_main_v14 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) := by
  show StableHlo.after hostOps0_1 (V1 m c) (Proc.devRef .tc main_v14) = _
  have h13 := v13 m c
  generalize V1 m c = W at h13 ⊢
  after_results_simp
  rw [h13]
  rfl

/-- A buffer the first two items do not write holds at their end what it held at launch. -/
theorem argV2 (r : Ref sig .tc) (h0 : r ∉ hostOps0_W) (h1 : r ∉ hostOps0_1_W) : V2 m c r = V0 m c r :=
  (V2_of m c r h1).trans (V1_of m c r h0)

set_option maxHeartbeats 4000000 in
/-- Branch 1's matrix `z`: the second projection's scatter-add plus an argument matrix times, entry by entry, the exponential of the
    third projection's scatter-add — the reference's value of the same buffer. -/
theorem z1 : V3 m c main_v45 = Cert.ReferenceIdeal.Read.val_main_v45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg10)) (m ((c.tc : Thread nD τ).loc main_arg11)) (m ((c.tc : Thread nD τ).loc main_arg12)) := by
  show StableHlo.after hostOps0_2 (V2 m c) (Proc.devRef .tc main_v45) = _
  have h14 := v14 m c
  have e1 := argV2 m c main_arg1 (by decide) (by decide)
  have e2 := argV2 m c main_arg2 (by decide) (by decide)
  have e3 := argV2 m c main_arg3 (by decide) (by decide)
  have e8 := argV2 m c main_arg8 (by decide) (by decide)
  have e11 := argV2 m c main_arg11 (by decide) (by decide)
  have e12 := argV2 m c main_arg12 (by decide) (by decide)
  generalize V2 m c = W at h14 e1 e2 e3 e8 e11 e12 ⊢
  after_results_simp
  rw [h14, e1, e2, e3, e8, e11, e12]
  rfl

set_option maxHeartbeats 4000000 in
/-- What region 0 reads: the host's conversion of `z` to the narrower format. -/
theorem z1b : V3 m c main_v46 = truncf .bf16 (V3 m c main_v45) bitsLt_bf16_f32 := by
  show StableHlo.after hostOps0_2 (V2 m c) (Proc.devRef .tc main_v46) = truncf .bf16 (StableHlo.after hostOps0_2 (V2 m c) (Proc.devRef .tc main_v45)) bitsLt_bf16_f32
  generalize V2 m c = W
  after_results_simp

/-- A buffer no item before region 0's host tail writes holds there what it held at launch. -/
theorem argV4 (r : Ref sig .tc) (h0 : r ∉ hostOps0_W) (h1 : r ∉ hostOps0_1_W) (h2 : r ∉ hostOps0_2_W)
    (h3 : r ∉ ([main_v47] : List (Ref sig .tc))) : V4 m outs c r = V0 m c r :=
  (V4_of m outs c r h3).trans <| (V3_of m c r h2).trans (argV2 m c r h0 h1)

/-- The same two items later. -/
theorem argV6 (r : Ref sig .tc) (h0 : r ∉ hostOps0_W) (h1 : r ∉ hostOps0_1_W) (h2 : r ∉ hostOps0_2_W)
    (h3 : r ∉ ([main_v47] : List (Ref sig .tc))) (h4 : r ∉ hostOps1_W) (h5 : r ∉ hostOps1_1_W) : V6 m outs c r = V0 m c r :=
  (V6_of m outs c r h5).trans <| (V5_of m outs c r h4).trans (argV4 m outs c r h0 h1 h2 h3)

/-- The same after region 1. -/
theorem argV8 (r : Ref sig .tc) (h0 : r ∉ hostOps0_W) (h1 : r ∉ hostOps0_1_W) (h2 : r ∉ hostOps0_2_W)
    (h3 : r ∉ ([main_v47] : List (Ref sig .tc))) (h4 : r ∉ hostOps1_W) (h5 : r ∉ hostOps1_1_W) (h6 : r ∉ hostOps1_2_W)
    (h7 : r ∉ ([main_v96] : List (Ref sig .tc))) : V8 m outs c r = V0 m c r :=
  (V8_of m outs c r h7).trans <| (V7_of m outs c r h6).trans (argV6 m outs c r h0 h1 h2 h3 h4 h5)

set_option maxHeartbeats 2000000 in
/-- Branch 2, up to the first scatter-add. -/
theorem v62 : V5 m outs c main_v62 = Cert.ReferenceIdeal.Read.val_main_v62 (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) := by
  show StableHlo.after hostOps1 (V4 m outs c) (Proc.devRef .tc main_v62) = _
  have e4 := argV4 m outs c main_arg4 (by decide) (by decide) (by decide) (by decide)
  have e5 := argV4 m outs c main_arg5 (by decide) (by decide) (by decide) (by decide)
  have e6 := argV4 m outs c main_arg6 (by decide) (by decide) (by decide) (by decide)
  have e7 := argV4 m outs c main_arg7 (by decide) (by decide) (by decide) (by decide)
  have e13 := argV4 m outs c main_arg13 (by decide) (by decide) (by decide) (by decide)
  generalize V4 m outs c = W at e4 e5 e6 e7 e13 ⊢
  after_results_simp
  rw [e4, e5, e6, e7, e13]
  rfl

/-- Branch 2, the rectifier applied to the first scatter-add. -/
theorem v63 : V6 m outs c main_v63 = Cert.ReferenceIdeal.Read.val_main_v63 (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) := by
  show StableHlo.after hostOps1_1 (V5 m outs c) (Proc.devRef .tc main_v63) = _
  have h62 := v62 m outs c
  generalize V5 m outs c = W at h62 ⊢
  after_results_simp
  rw [h62]
  rfl

set_option maxHeartbeats 4000000 in
/-- Branch 2's matrix `z`, whatever region 0 left in its output array. -/
theorem z2 : V7 m outs c main_v94 = Cert.ReferenceIdeal.Read.val_main_v94 (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg13)) (m ((c.tc : Thread nD τ).loc main_arg14)) (m ((c.tc : Thread nD τ).loc main_arg15)) := by
  show StableHlo.after hostOps1_2 (V6 m outs c) (Proc.devRef .tc main_v94) = _
  have h63 := v63 m outs c
  have e5 := argV6 m outs c main_arg5 (by decide) (by decide) (by decide) (by decide) (by decide) (by decide)
  have e6 := argV6 m outs c main_arg6 (by decide) (by decide) (by decide) (by decide) (by decide) (by decide)
  have e7 := argV6 m outs c main_arg7 (by decide) (by decide) (by decide) (by decide) (by decide) (by decide)
  have e9 := argV6 m outs c main_arg9 (by decide) (by decide) (by decide) (by decide) (by decide) (by decide)
  have e14 := argV6 m outs c main_arg14 (by decide) (by decide) (by decide) (by decide) (by decide) (by decide)
  have e15 := argV6 m outs c main_arg15 (by decide) (by decide) (by decide) (by decide) (by decide) (by decide)
  generalize V6 m outs c = W at h63 e5 e6 e7 e9 e14 e15 ⊢
  after_results_simp
  rw [h63, e5, e6, e7, e9, e14, e15]
  rfl

set_option maxHeartbeats 4000000 in
/-- What region 1 reads: the host's conversion of branch 2's `z` to the narrower format. -/
theorem z2b : V7 m outs c main_v95 = truncf .bf16 (V7 m outs c main_v94) bitsLt_bf16_f32 := by
  show StableHlo.after hostOps1_2 (V6 m outs c) (Proc.devRef .tc main_v95) = truncf .bf16 (StableHlo.after hostOps1_2 (V6 m outs c) (Proc.devRef .tc main_v94)) bitsLt_bf16_f32
  generalize V6 m outs c = W
  after_results_simp

set_option maxHeartbeats 4000000 in
/-- Branch 1's second scatter-add, the mean the third result projects. -/
theorem v28 : V3 m c main_v28 = Cert.ReferenceIdeal.Read.val_main_v28 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) := by
  show StableHlo.after hostOps0_2 (V2 m c) (Proc.devRef .tc main_v28) = _
  have h14 := v14 m c
  have e1 := argV2 m c main_arg1 (by decide) (by decide)
  have e2 := argV2 m c main_arg2 (by decide) (by decide)
  have e3 := argV2 m c main_arg3 (by decide) (by decide)
  have e11 := argV2 m c main_arg11 (by decide) (by decide)
  generalize V2 m c = W at h14 e1 e2 e3 e11 ⊢
  after_results_simp
  rw [h14, e1, e2, e3, e11]
  rfl

/-- No later item writes that buffer. -/
theorem v28_kept : V8 m outs c main_v28 = V3 m c main_v28 :=
  (V8_of m outs c main_v28 (by decide)).trans <| (V7_of m outs c main_v28 (by decide)).trans <|
    (V6_of m outs c main_v28 (by decide)).trans <| (V5_of m outs c main_v28 (by decide)).trans (V4_of m outs c main_v28 (by decide))

/-- The third result: branch 1's mean through the output projection, plus the bias on every row. -/
theorem out2 : V9 m outs c main_v101 = Cert.ReferenceIdeal.Read.val_main_v101 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg16)) (m ((c.tc : Thread nD τ).loc main_arg17)) := by
  show StableHlo.after hostOps2 (V8 m outs c) (Proc.devRef .tc main_v101) = _
  have h28 := (v28_kept m outs c).trans (v28 m c)
  have e16 := argV8 m outs c main_arg16 (by decide) (by decide) (by decide) (by decide) (by decide) (by decide) (by decide) (by decide)
  have e17 := argV8 m outs c main_arg17 (by decide) (by decide) (by decide) (by decide) (by decide) (by decide) (by decide) (by decide)
  generalize V8 m outs c = W at h28 e16 e17 ⊢
  after_results_simp
  rw [h28, e16, e17]
  rfl

end Cert.KernelIdeal.HostChain

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.GramBlock.lean ====
/-
  The kernel body's product, read at an index.

  At each grid point the kernel body loads two [2048, 16] blocks `A` and `B` and stores the matrix unit's product
  with dimension numbers "contract axis 1 against axis 1", accumulated into zeros: the [2048, 2048] block `A · Bᵀ`.
  At the ideal values its entry at `(a, b)` is `Σ_k A[a, k] · B[b, k]` (the two shape casts are between equal shapes
  and are the identity; the zero accumulator contributes `0 +`, which is absorbed).
-/
import proofs.«105174_j53644141527286_1_alg».proof.Proof.Gen.KernelIdeal.Skeleton
import proofs.«105174_j53644141527286_1_alg».proof.Proof.LibMatmulT
import Idealize.ShloMosaic.Lib.Pipeline.Value

noncomputable section

namespace Cert.KernelIdeal.GramBlock

open Cert.KernelIdeal Cert.KernelIdeal.Gen Idealize.ShloMosaic Idealize.ShloMosaic.ValueIdx

/-- The first kernel's stored block at `(a, b)`: `Σ_k A[a, k] · B[b, k]`. -/
theorem pay0 (x0 x1 : Vec Ideal S2048x16 .bf16) (a b : Fin 2048) :
    k0_pay1 (F := Ideal) x0 x1 (ix2 a b) = ∑ k : Fin 16, x0 (ix2 a k) * x1 (ix2 b k) := by
  unfold k0_pay1
  simp only [shapeCast_self]
  exact MatmulT.matmul_zero_apply dot_S2048x16_S2048x16_S2048x2048_1_1_0_0_n_n_wf none x0 x1 a b

/-- The second kernel's stored block at `(a, b)`: `Σ_k A[a, k] · B[b, k]`. -/
theorem pay1 (x0 x1 : Vec Ideal S2048x16 .bf16) (a b : Fin 2048) :
    k1_pay1 (F := Ideal) x0 x1 (ix2 a b) = ∑ k : Fin 16, x0 (ix2 a k) * x1 (ix2 b k) := by
  unfold k1_pay1
  simp only [shapeCast_self]
  exact MatmulT.matmul_zero_apply dot_S2048x16_S2048x16_S2048x2048_1_1_0_0_n_n_wf none x0 x1 a b

end Cert.KernelIdeal.GramBlock

end
-- ==== Proof.GramSpec.lean ====
/-
  The Gram matrix of a tall matrix, flattened.

  For an [8192, 16] matrix `y` of extended reals, `gram2 y` is the [8192, 8192] matrix `y · yᵀ`: its entry at
  `(p, q)` is `Σ_k y[p, k] · y[q, k]`, the sum taken over `k : Fin 16` in the order of `Finset.univ`. `gram y` is the
  same matrix laid out row-major as a vector of 8192 · 8192 = 67108864 entries: the entry at the flat position `i` is
  the matrix entry at row `i / 8192` and column `i % 8192`.
-/
import Idealize.ShloMosaic.PureOps.Ideal
import Idealize.ShloMosaic.Lib.ValueIdx

noncomputable section

namespace Cert.Gram

open Idealize.ShloMosaic Idealize.ShloMosaic.ValueIdx

/-- The row of the flat position `i` in the row-major layout of an [8192, 8192] matrix. -/
def row (i : (⟨1, ![67108864]⟩ : Shape).Idx) : Fin 8192 :=
  ⟨(i 0).val / 8192, by have h0 : (i 0).val < 67108864 := (i 0).isLt; omega⟩

/-- The column of the flat position `i` in the row-major layout of an [8192, 8192] matrix. -/
def col (i : (⟨1, ![67108864]⟩ : Shape).Idx) : Fin 8192 :=
  ⟨(i 0).val % 8192, Nat.mod_lt _ (by decide)⟩

theorem row_val (i : (⟨1, ![67108864]⟩ : Shape).Idx) : (row i).val = (i 0).val / 8192 := rfl

theorem col_val (i : (⟨1, ![67108864]⟩ : Shape).Idx) : (col i).val = (i 0).val % 8192 := rfl

/-- `y · yᵀ` at `(p, q)`: `Σ_k y[p, k] · y[q, k]`. -/
def gram2 (y : (⟨2, ![8192, 16]⟩ : Shape).Idx → EReal) : (⟨2, ![8192, 8192]⟩ : Shape).Idx → EReal :=
  fun I => ∑ k : Fin 16, y (ix2 (I 0) k) * y (ix2 (I 1) k)

/-- `y · yᵀ` flattened row-major: at the flat position `i`, `Σ_k y[i / 8192, k] · y[i % 8192, k]`. -/
def gram (y : (⟨2, ![8192, 16]⟩ : Shape).Idx → EReal) : (⟨1, ![67108864]⟩ : Shape).Idx → EReal :=
  fun i => ∑ k : Fin 16, y (ix2 (row i) k) * y (ix2 (col i) k)

theorem gram_apply (y : (⟨2, ![8192, 16]⟩ : Shape).Idx → EReal) (i : (⟨1, ![67108864]⟩ : Shape).Idx) :
    gram y i = ∑ k : Fin 16, y (ix2 (row i) k) * y (ix2 (col i) k) := rfl

theorem gram2_apply (y : (⟨2, ![8192, 16]⟩ : Shape).Idx → EReal) (p q : Fin 8192) :
    gram2 y (ix2 p q) = ∑ k : Fin 16, y (ix2 p k) * y (ix2 q k) := rfl

/-- The flat vector is the matrix read at (row, column). -/
theorem gram_eq_gram2 (y : (⟨2, ![8192, 16]⟩ : Shape).Idx → EReal) (i : (⟨1, ![67108864]⟩ : Shape).Idx) :
    gram y i = gram2 y (ix2 (row i) (col i)) := rfl

end Cert.Gram

end
-- ==== Proof.GramArray.lean ====
/-
  From tiles to the array: each decoder call leaves `z · zᵀ` in its result array.

  The call's 4 × 4 grid tiles the [8192, 8192] result into 2048 × 2048 tiles. At grid point (i, j) the body stores
  band_i · band_jᵀ, where band_i is rows 2048·i … 2048·i + 2047 of the [8192, 16] operand `z` (both operand windows read
  the same array). Entry `(a, b)` of that tile is `Σ_k z[2048·i + a, k] · z[2048·j + b, k]`, which is entry
  `(2048·i + a, 2048·j + b)` of `z · zᵀ`: every point writes back its own tile of ONE whole-array function. The tiles cover
  the array (entry `(p, q)` lies in tile `(p / 2048, q / 2048)`), so after the call the array holds `z · zᵀ`.
-/
import proofs.«105174_j53644141527286_1_alg».proof.Proof.KIData
import proofs.«105174_j53644141527286_1_alg».proof.Proof.GramBlock
import proofs.«105174_j53644141527286_1_alg».proof.Proof.GramSpec
import Idealize.ShloMosaic.Lib.Pipeline.Value

noncomputable section

namespace Cert.KernelIdeal.GramArray

open Cert.KernelIdeal Cert.KernelIdeal.Gen Cert.KernelIdeal.Hand Cert.KernelIdeal.GramBlock Cert.Gram
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer load or store. -/
theorem hz : (![0, 0] : Fin 2 → Nat) = fun _ => 0 := funext fun a => by fin_cases a <;> rfl

/-! ## Decoder call 0 -/

/-- The printed index maps over the 4 × 4 grid: the left operand's band is the tile's row band, the right operand's band
    is the tile's column band, both operands span all 16 columns, and the tile's coordinates are below 4. -/
theorem idx_facts0 : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 3 :=
  (by decide +kernel : ∀ t : Fin grid0.N, _)

/-- Every tile of the 4 × 4 tiling is some grid point's. -/
theorem idx_onto0 : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- The stored tile at `(a, b)`, when row `a` of the left band is row `P` of `z` and row `b` of the right band is row `Q`
    of `z`: the entry `(P, Q)` of `z · zᵀ`. -/
theorem tile0_apply (x0 x1 : Vec Ideal S2048x16 .bf16) (z : (⟨2, ![8192, 16]⟩ : Shape).Idx → EReal) (a b : Fin 2048) (P Q : Fin 8192)
    (h0 : ∀ k : Fin 16, x0 (ix2 a k) = z (ix2 P k)) (h1 : ∀ k : Fin 16, x1 (ix2 b k) = z (ix2 Q k)) :
    k0_pay1 (F := Ideal) x0 x1 (ix2 a b) = gram2 z (ix2 P Q) := by
  rw [pay0, gram2_apply]
  exact Finset.sum_congr rfl fun k _ => by rw [h0 k, h1 k]

/-- What grid point `t` writes back is tile `t` of `z · zᵀ`, with `z` the operand array as the call finds it. -/
theorem flushed0_eq (c : Dev nD) (t : Fin cfg0.N) :
    (dat0 (F := Ideal) V c).flushed 2 t = ((cfg0.win 2).blk t).view.read (Elt Ideal) (gram2 (V c main_v46)) := by
  show (cfg0.win 2).cut (grid0.coords t) ((dat0 (F := Ideal) V c).after 2 t) = _
  rw [after0_2]
  unfold out0_2
  rw [View.canon_unit_zero hz]
  simp only [View.ld_unit_zero (S := S2048x16) hz]
  obtain ⟨e0, e1, e2, e3, e4, e5⟩ := idx_facts0 t
  funext j
  obtain ⟨a, b, rfl⟩ : ∃ (a b : Fin 2048), j = ix2 a b := ⟨j 0, j 1, eq_ix2 j⟩
  have hr : (((cfg0.win 2).blk t).view.emb (ix2 a b) : S8192x8192.Idx)
      = ix2 (⟨win0_2.index t (0 : Fin 2) * 2048 + a.val, by have := a.isLt; omega⟩ : Fin 8192)
          (⟨win0_2.index t (1 : Fin 2) * 2048 + b.val, by have := b.isLt; omega⟩ : Fin 8192) := by
    funext ax; apply Fin.ext
    match ax with
    | ⟨0, _⟩ => show win0_2.index t (0 : Fin 2) * 2048 + 1 * a.val = win0_2.index t (0 : Fin 2) * 2048 + a.val; omega
    | ⟨1, _⟩ => show win0_2.index t (1 : Fin 2) * 2048 + 1 * b.val = win0_2.index t (1 : Fin 2) * 2048 + b.val; omega
  show k0_pay1 (F := Ideal) (iblk0 V c 0 t) (iblk0 V c 1 t) (ix2 a b) = gram2 (V c main_v46) (((cfg0.win 2).blk t).view.emb (ix2 a b))
  rw [hr]
  refine tile0_apply _ _ _ a b _ _ (fun k => ?_) (fun k => ?_)
  · show V c main_v46 (((cfg0.win 0).blk t).view.emb (ix2 a k)) = _
    refine congrArg (V c main_v46) ?_
    funext ax; apply Fin.ext
    match ax with
    | ⟨0, _⟩ => show win0_0.index t (0 : Fin 2) * 2048 + 1 * a.val = win0_2.index t (0 : Fin 2) * 2048 + a.val; omega
    | ⟨1, _⟩ => show win0_0.index t (1 : Fin 2) * 16 + 1 * k.val = k.val; omega
  · show V c main_v46 (((cfg0.win 1).blk t).view.emb (ix2 b k)) = _
    refine congrArg (V c main_v46) ?_
    funext ax; apply Fin.ext
    match ax with
    | ⟨0, _⟩ => show win0_1.index t (0 : Fin 2) * 2048 + 1 * b.val = win0_2.index t (1 : Fin 2) * 2048 + b.val; omega
    | ⟨1, _⟩ => show win0_1.index t (1 : Fin 2) * 16 + 1 * k.val = k.val; omega

/-- An index of the result array is in point `t`'s tile iff each coordinate is in the tile's range on its axis. -/
theorem mem_blk0 (t : Fin cfg0.N) (i : S8192x8192.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v47).slice (win0_2.rect t)).set ↔ _
  rw [View.set_slice_whole, Rect.mem_set_unit]
  exact Iff.rfl

/-- The 16 tiles cover the result array: the entry `(p, q)` is in tile `(p / 2048, q / 2048)`. -/
theorem cover0 (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto0 ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- The result array after the call: `z · zᵀ`, with `z` the operand array as the call finds it. -/
theorem final0 (c : Dev nD) : (dat0 (F := Ideal) V c).arrAt 2 cfg0.N = gram2 (V c main_v46) :=
  (dat0 (F := Ideal) V c).arrAt_eq_of_cover 2 (gram2 (V c main_v46)) (fun t _ => flushed0_eq V c t) cover0

/-! ## Decoder call 1 -/

/-- The printed index maps over the 4 × 4 grid: the left operand's band is the tile's row band, the right operand's band
    is the tile's column band, both operands span all 16 columns, and the tile's coordinates are below 4. -/
theorem idx_facts1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 3
    ∧ win1_2.index t (1 : Fin 2) ≤ 3 :=
  (by decide +kernel : ∀ t : Fin grid1.N, _)

/-- Every tile of the 4 × 4 tiling is some grid point's. -/
theorem idx_onto1 : ∀ (q0 q1 : Fin 4), ∃ t : Fin cfg1.N, win1_2.index t = ![q0.val, q1.val] :=
  (by decide +kernel : ∀ (q0 q1 : Fin 4), ∃ t : Fin grid1.N, win1_2.index t = ![q0.val, q1.val])

/-- The stored tile at `(a, b)`, when row `a` of the left band is row `P` of `z` and row `b` of the right band is row `Q`
    of `z`: the entry `(P, Q)` of `z · zᵀ`. -/
theorem tile1_apply (x0 x1 : Vec Ideal S2048x16 .bf16) (z : (⟨2, ![8192, 16]⟩ : Shape).Idx → EReal) (a b : Fin 2048) (P Q : Fin 8192)
    (h0 : ∀ k : Fin 16, x0 (ix2 a k) = z (ix2 P k)) (h1 : ∀ k : Fin 16, x1 (ix2 b k) = z (ix2 Q k)) :
    k1_pay1 (F := Ideal) x0 x1 (ix2 a b) = gram2 z (ix2 P Q) := by
  rw [pay1, gram2_apply]
  exact Finset.sum_congr rfl fun k _ => by rw [h0 k, h1 k]

/-- What grid point `t` writes back is tile `t` of `z · zᵀ`, with `z` the operand array as the call finds it. -/
theorem flushed1_eq (c : Dev nD) (t : Fin cfg1.N) :
    (dat1 (F := Ideal) V c).flushed 2 t = ((cfg1.win 2).blk t).view.read (Elt Ideal) (gram2 (V c main_v95)) := by
  show (cfg1.win 2).cut (grid1.coords t) ((dat1 (F := Ideal) V c).after 2 t) = _
  rw [after1_2]
  unfold out1_2
  rw [View.canon_unit_zero hz]
  simp only [View.ld_unit_zero (S := S2048x16) hz]
  obtain ⟨e0, e1, e2, e3, e4, e5⟩ := idx_facts1 t
  funext j
  obtain ⟨a, b, rfl⟩ : ∃ (a b : Fin 2048), j = ix2 a b := ⟨j 0, j 1, eq_ix2 j⟩
  have hr : (((cfg1.win 2).blk t).view.emb (ix2 a b) : S8192x8192.Idx)
      = ix2 (⟨win1_2.index t (0 : Fin 2) * 2048 + a.val, by have := a.isLt; omega⟩ : Fin 8192)
          (⟨win1_2.index t (1 : Fin 2) * 2048 + b.val, by have := b.isLt; omega⟩ : Fin 8192) := by
    funext ax; apply Fin.ext
    match ax with
    | ⟨0, _⟩ => show win1_2.index t (0 : Fin 2) * 2048 + 1 * a.val = win1_2.index t (0 : Fin 2) * 2048 + a.val; omega
    | ⟨1, _⟩ => show win1_2.index t (1 : Fin 2) * 2048 + 1 * b.val = win1_2.index t (1 : Fin 2) * 2048 + b.val; omega
  show k1_pay1 (F := Ideal) (iblk1 V c 0 t) (iblk1 V c 1 t) (ix2 a b) = gram2 (V c main_v95) (((cfg1.win 2).blk t).view.emb (ix2 a b))
  rw [hr]
  refine tile1_apply _ _ _ a b _ _ (fun k => ?_) (fun k => ?_)
  · show V c main_v95 (((cfg1.win 0).blk t).view.emb (ix2 a k)) = _
    refine congrArg (V c main_v95) ?_
    funext ax; apply Fin.ext
    match ax with
    | ⟨0, _⟩ => show win1_0.index t (0 : Fin 2) * 2048 + 1 * a.val = win1_2.index t (0 : Fin 2) * 2048 + a.val; omega
    | ⟨1, _⟩ => show win1_0.index t (1 : Fin 2) * 16 + 1 * k.val = k.val; omega
  · show V c main_v95 (((cfg1.win 1).blk t).view.emb (ix2 b k)) = _
    refine congrArg (V c main_v95) ?_
    funext ax; apply Fin.ext
    match ax with
    | ⟨0, _⟩ => show win1_1.index t (0 : Fin 2) * 2048 + 1 * b.val = win1_2.index t (1 : Fin 2) * 2048 + b.val; omega
    | ⟨1, _⟩ => show win1_1.index t (1 : Fin 2) * 16 + 1 * k.val = k.val; omega

/-- An index of the result array is in point `t`'s tile iff each coordinate is in the tile's range on its axis. -/
theorem mem_blk1 (t : Fin cfg1.N) (i : S8192x8192.Idx) :
    i ∈ ((cfg1.win 2).blk t).view.set ↔ ∀ a : Fin 2, win1_2.index t a * S2048x2048.size a ≤ (i a).val ∧ (i a).val < win1_2.index t a * S2048x2048.size a + S2048x2048.size a := by
  show i ∈ ((View.whole main_v96).slice (win1_2.rect t)).set ↔ _
  rw [View.set_slice_whole, Rect.mem_set_unit]
  exact Iff.rfl

/-- The 16 tiles cover the result array: the entry `(p, q)` is in tile `(p / 2048, q / 2048)`. -/
theorem cover1 (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto1 ⟨(i 0).val / 2048, by omega⟩ ⟨(i 1).val / 2048, by omega⟩
  have q0 : win1_2.index t (0 : Fin 2) = (i 0).val / 2048 := congrFun ht 0
  have q1 : win1_2.index t (1 : Fin 2) = (i 1).val / 2048 := congrFun ht 1
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 2048 ≤ (i 1).val ∧ (i 1).val < win1_2.index t (1 : Fin 2) * 2048 + 2048; omega

/-- The result array after the call: `z · zᵀ`, with `z` the operand array as the call finds it. -/
theorem final1 (c : Dev nD) : (dat1 (F := Ideal) V c).arrAt 2 cfg1.N = gram2 (V c main_v95) :=
  (dat1 (F := Ideal) V c).arrAt_eq_of_cover 2 (gram2 (V c main_v95)) (fun t _ => flushed1_eq V c t) cover1

end Cert.KernelIdeal.GramArray

end
-- ==== Proof.GramRef.lean ====
/-
  The reference's flattened product is the Gram matrix of its left operand.

  The reference transposes the [8192, 16] matrix `z`, contracts `z` (axis 1) against the transpose (axis 0) and
  reshapes the [8192, 8192] result to a vector. At the flat position `i` the reshape reads the matrix at
  `(i / 8192, i % 8192)`, the contraction there is `Σ_k z[i / 8192, k] · zᵀ[k, i % 8192]`, and the transpose reads
  `zᵀ[k, q] = z[q, k]`: the entry is `Σ_k z[i / 8192, k] · z[i % 8192, k]`, which is `Cert.Gram.gram z i`.
-/
import proofs.«105174_j53644141527286_1_alg».proof.Proof.Gen.ReferenceIdeal.Read
import proofs.«105174_j53644141527286_1_alg».proof.Proof.GramSpec

noncomputable section

namespace Cert.RefGram

open Cert.ReferenceIdeal Cert.ReferenceIdeal.Read Idealize.ShloMosaic Idealize.ShloMosaic.ValueIdx Cert.Gram

/-- The left operand of the contraction, read through the reshape, is `z` at (row, k). -/
theorem lidx_eq (i : S67108864.Idx) (k : Fin 16) : lidx_main_v47 (idx_main_v48 i) k = ix2 (row i) k :=
  funext fun a => match a with
    | ⟨0, _⟩ => rfl
    | ⟨1, _⟩ => rfl

/-- The right operand of the contraction, read through the reshape and the transpose, is `z` at (column, k). -/
theorem ridx_eq (i : S67108864.Idx) (k : Fin 16) : idx_main_v46 (ridx_main_v47 (idx_main_v48 i) k) = ix2 (col i) k :=
  funext fun a => match a with
    | ⟨0, _⟩ => rfl
    | ⟨1, _⟩ => rfl

/-- Branch 1: the reference's flattened product is the Gram matrix of `main_v45`. -/
theorem ref0 (x0 : (⟨S8192x512, .f32⟩ : BufTy).Contents (Elt Ideal)) (x1 x2 : (⟨S262144, .i32⟩ : BufTy).Contents (Elt Ideal)) (x3 : (⟨S262144, .f32⟩ : BufTy).Contents (Elt Ideal)) (x8 : (⟨S8192x16, .f32⟩ : BufTy).Contents (Elt Ideal)) (x10 : (⟨S512x32, .f32⟩ : BufTy).Contents (Elt Ideal)) (x11 x12 : (⟨S32x16, .f32⟩ : BufTy).Contents (Elt Ideal)) :
    val_main_v48 (F := Ideal) x0 x1 x2 x3 x8 x10 x11 x12 = gram (val_main_v45 (F := Ideal) x0 x1 x2 x3 x8 x10 x11 x12) := by
  funext i
  rw [val_main_v48_apply, val_main_v47_apply]
  simp only [val_main_v46_apply]
  generalize val_main_v45 (F := Ideal) x0 x1 x2 x3 x8 x10 x11 x12 = y
  rw [gram_apply]
  refine Finset.sum_congr rfl fun k _ => ?_
  rw [lidx_eq, ridx_eq]

/-- Branch 2: the reference's flattened product is the Gram matrix of `main_v94`. -/
theorem ref1 (x4 : (⟨S8192x512, .f32⟩ : BufTy).Contents (Elt Ideal)) (x5 x6 : (⟨S262144, .i32⟩ : BufTy).Contents (Elt Ideal)) (x7 : (⟨S262144, .f32⟩ : BufTy).Contents (Elt Ideal)) (x9 : (⟨S8192x16, .f32⟩ : BufTy).Contents (Elt Ideal)) (x13 : (⟨S512x32, .f32⟩ : BufTy).Contents (Elt Ideal)) (x14 x15 : (⟨S32x16, .f32⟩ : BufTy).Contents (Elt Ideal)) :
    val_main_v97 (F := Ideal) x4 x5 x6 x7 x9 x13 x14 x15 = gram (val_main_v94 (F := Ideal) x4 x5 x6 x7 x9 x13 x14 x15) := by
  funext i
  rw [val_main_v97_apply, val_main_v96_apply]
  simp only [val_main_v95_apply]
  generalize val_main_v94 (F := Ideal) x4 x5 x6 x7 x9 x13 x14 x15 = y
  rw [gram_apply]
  refine Finset.sum_congr rfl fun k _ => ?_
  exact congrArg₂ (· * ·) (congrArg y (lidx_eq i k)) (congrArg y (ridx_eq i k))

end Cert.RefGram

end
-- ==== Proof.GramFlat.lean ====
/-
  Flattening the Gram matrix.

  Reshaping the [8192, 8192] matrix `z · zᵀ` to a vector of 67108864 entries keeps the row-major order: the entry at the
  flat position `i` is the matrix entry at `(i / 8192, i % 8192)`, because `(i / 8192) · 8192 + i % 8192 = i`. So the
  reshaped matrix is the flattened Gram matrix `Cert.Gram.gram z`.
-/
import proofs.«105174_j53644141527286_1_alg».proof.Proof.GramSpec
import Idealize.ShloMosaic.Lib.Pipeline.Value

noncomputable section

namespace Cert.Gram

open Idealize.ShloMosaic Idealize.ShloMosaic.ValueIdx

/-- The reshape of `z · zᵀ` to a vector is the flattened Gram matrix. -/
theorem shapeCast_gram2 (z : (⟨2, ![8192, 16]⟩ : Shape).Idx → EReal)
    (h : (⟨2, ![8192, 8192]⟩ : Shape).ShapeCasts ⟨1, ![67108864]⟩) :
    shapeCast ⟨1, ![67108864]⟩ (gram2 z) h = gram z := by
  funext i
  rw [gram_eq_gram2]
  exact shapeCast_apply (gram2 z) h i (ix2 (row i) (col i))
    (by rewrite [Shape.rowMajor_val_two, Shape.rowMajor_val_one]
        have h0 : (i 0).val < 67108864 := (i 0).isLt
        show ((i 0).val) / 8192 * 8192 + ((i 0).val) % 8192 = (i 0).val
        omega)

end Cert.Gram

end
-- ==== Proof.GramFlatK.lean ====
/-
  The two host steps around a decoder call, in the idealized program's own spelling.

  Before the call the [8192, 16] matrix is converted from f32 to bf16: at the ideal values a change of float format is
  the identity, so the converted matrix is the matrix. After the call the [8192, 8192] result is reshaped to a vector of
  67108864 entries: the reshape of `z · zᵀ` is the flattened Gram matrix `Cert.Gram.gram z`.
-/
import proofs.«105174_j53644141527286_1_alg».proof.Proof.Gen.KernelIdeal
import proofs.«105174_j53644141527286_1_alg».proof.Proof.GramFlat

noncomputable section

namespace Cert.KernelIdeal.GramFlat

open Cert.KernelIdeal Cert.KernelIdeal.Facts₀ Idealize.ShloMosaic Cert.Gram

/-- The program's reshape of `z · zᵀ` is the flattened Gram matrix. -/
theorem reshape_gram2 (z : S8192x16.Idx → EReal) :
    shapeCast S67108864 (gram2 z) shapeCasts_S8192x8192_S67108864 = gram z :=
  shapeCast_gram2 z _

/-- At the ideal values the conversion of a matrix from f32 to bf16 is the identity. -/
theorem truncf_bf16 {s : Shape} (x : FVec Ideal s .f32) (h : FTy.bits .bf16 < FTy.bits .f32) :
    (truncf .bf16 x h : FVec Ideal s .bf16) = x := rfl

/-- The program's conversion of the [8192, 16] matrix to bf16 is the identity. -/
theorem truncf_bf16_S8192x16 (x : (⟨S8192x16, .f32⟩ : BufTy).Contents (Elt Ideal)) :
    ((truncf .bf16 x bitsLt_bf16_f32 : FVec Ideal S8192x16 .bf16) : S8192x16.Idx → EReal) = x := rfl

end Cert.KernelIdeal.GramFlat

end
-- ==== Proof.Values.lean ====
/- The three results of the kernel program at the end of its run, as the reference's values of the launch arguments.
   Each square result is the host's reshape of what a decoder call leaves in its output array. The call leaves the
   product `z · zᵀ` of the [8192, 16] matrix it is handed; that matrix is the host's conversion of `z` to the narrower
   float format, which changes nothing at the ideal values; `z` is the reference's value of the same buffer; and the
   reference's transpose, contraction and reshape of `z` is the same flattened product. The third result is computed
   by the host alone, by the operations the reference applies. -/
import proofs.«105174_j53644141527286_1_alg».proof.Proof.HostChain
import proofs.«105174_j53644141527286_1_alg».proof.Proof.KIRegions
import proofs.«105174_j53644141527286_1_alg».proof.Proof.GramArray
import proofs.«105174_j53644141527286_1_alg».proof.Proof.GramRef
import proofs.«105174_j53644141527286_1_alg».proof.Proof.GramFlatK

set_option maxRecDepth 16384

noncomputable section

namespace Cert.KernelIdeal.Values

open Idealize.ShloMosaic Idealize.ShloMosaic.TcCoe Cert.KernelIdeal Cert.KernelIdeal.Gen Cert.KernelIdeal.Hand
open Cert.KernelIdeal.HostChain Cert.Gram

variable (m : (ℓ : Loc nD τ sig) → Buf (Elt Ideal) ℓ) (outs : Outs (F := Ideal)) (c : Dev nD)

/-! ## For any contents the calls leave that are the calls' final arrays -/

/-- The first result, given that what call 0 leaves in its output array is the call's final array computed from the
    buffers as the call finds them. -/
theorem val0_of (h4 : outs 4 main_v47 c = (dat0 (fun c b => V3 m c b) c).arrAt 2 cfg0.N) :
    V9 m outs c main_v48 = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg10)) (m ((c.tc : Thread nD τ).loc main_arg11)) (m ((c.tc : Thread nD τ).loc main_arg12)) := by
  rw [out0 m outs c, h4, Cert.KernelIdeal.GramArray.final0 (fun c b => V3 m c b) c, Cert.KernelIdeal.GramFlat.reshape_gram2,
    z1b m c, Cert.KernelIdeal.GramFlat.truncf_bf16, z1 m c]
  exact (Cert.RefGram.ref0 ..).symm

/-- The second result, given the same of call 1. -/
theorem val1_of (h8 : outs 8 main_v96 c = (dat1 (fun c b => V7 m outs c b) c).arrAt 2 cfg1.N) :
    V9 m outs c main_v97 = Cert.ReferenceIdeal.Read.val_main_v97 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg13)) (m ((c.tc : Thread nD τ).loc main_arg14)) (m ((c.tc : Thread nD τ).loc main_arg15)) := by
  rw [out1 m outs c, h8, Cert.KernelIdeal.GramArray.final1 (fun c b => V7 m outs c b) c, Cert.KernelIdeal.GramFlat.reshape_gram2,
    z2b m outs c, Cert.KernelIdeal.GramFlat.truncf_bf16, z2 m outs c]
  exact (Cert.RefGram.ref1 ..).symm

/-- The third result, whatever the calls leave: no call's output reaches it. -/
theorem val2_of : V9 m outs c main_v101 = Cert.ReferenceIdeal.Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg16)) (m ((c.tc : Thread nD τ).loc main_arg17)) :=
  out2 m outs c

/-! ## At the contents the two calls do leave -/

theorem val0 : V9 m (outsB m) c main_v48 = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg10)) (m ((c.tc : Thread nD τ).loc main_arg11)) (m ((c.tc : Thread nD τ).loc main_arg12)) :=
  val0_of m (outsB m) c (outsB_4 m c)

theorem val1 : V9 m (outsB m) c main_v97 = Cert.ReferenceIdeal.Read.val_main_v97 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg13)) (m ((c.tc : Thread nD τ).loc main_arg14)) (m ((c.tc : Thread nD τ).loc main_arg15)) :=
  val1_of m (outsB m) c (outsB_8 m c)

theorem val2 : V9 m (outsB m) c main_v101 = Cert.ReferenceIdeal.Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg16)) (m ((c.tc : Thread nD τ).loc main_arg17)) :=
  val2_of m (outsB m) c

end Cert.KernelIdeal.Values

end
-- ==== Proof.Claims.lean ====
/-
  The five claims.

  Frames. Each kernel program's @main is host stretches around two decoder calls; its run (the launch over the segments)
  ends with every unscoped buffer at the last contents of a fold from the launch memory, and no item of the fold writes an
  argument. The reference is host operations only: its generated run leaves the arguments unchanged.

  Preserves. The idealization rewrote nothing.

  Algebraic. Per branch both programs form the same [8192, 16] matrix z from the arguments by the same host operations.
  The reference returns the flattened product z · zᵀ; the kernel program rounds z to bf16 (the identity on the extended
  reals), computes the product tile by tile — tile (i, j) is band i of z times band j of z transposed, accumulated into
  zeros — and flattens it. Entry (p, q) of either is the sum over k of z[p, k] · z[q, k], in the same order, so the two
  agree with no appeal to finiteness. The third result, z_mean₁ · W_out + b_out, is computed by the same host operations
  in both programs.
-/
import proofs.«105174_j53644141527286_1_alg».proof.Defs
import proofs.«105174_j53644141527286_1_alg».proof.Proof.KRegions
import proofs.«105174_j53644141527286_1_alg».proof.Proof.KIRegions
import proofs.«105174_j53644141527286_1_alg».proof.Proof.Values
import proofs.«105174_j53644141527286_1_alg».proof.Proof.Gen.Pre_finite_inputs
import proofs.«105174_j53644141527286_1_alg».proof.Proof.Gen.ReferenceIdeal.Run
import proofs.«105174_j53644141527286_1_alg».proof.Proof.Gen.ReferenceIdeal.Read

set_option maxRecDepth 16384

noncomputable section

namespace Cert.Proof.Claims

open Idealize.ShloMosaic Idealize.ShloMosaic.TcCoe Idealize.SL.Sem

/-- The word-level program runs and leaves its arguments as launched. -/
theorem frame_k : Cert.frame_Kernel := fun m ρ _ =>
  Cert.Kernel.Hand.frame_of_run (F := Bits) m ρ (Cert.Kernel.Hand.outsB m) (Cert.Kernel.Hand.outsB_4 m) (Cert.Kernel.Hand.outsB_8 m)

/-- So does the idealized program. -/
theorem frame_ki : Cert.frame_KernelIdeal := fun m ρ _ =>
  Cert.KernelIdeal.Hand.frame_of_run (F := Ideal) m ρ (Cert.KernelIdeal.Hand.outsB m) (Cert.KernelIdeal.Hand.outsB_4 m) (Cert.KernelIdeal.Hand.outsB_8 m)

/-- The reference's run with its results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

open Cert.KernelIdeal Cert.KernelIdeal.Gen Cert.KernelIdeal.Hand in
/-- Both idealized programs end with the same three results: the kernel program's are the last contents of its fold at the
    result buffers, which are the reference's stage functions of the (agreeing) arguments. -/
theorem algebraic : Cert.algebraic_KernelIdeal_ReferenceIdeal := by
  intro m ρ m' ρ' _ hagree
  refine ⟨fun c => V9 m (outsB m) c main_v48, fun c => V9 m (outsB m) c main_v97, fun c => V9 m (outsB m) c main_v101, ?_, ?_⟩
  · exact (θ_run Cert.KernelIdeal.defs _ _).mono (fun r h c =>
      ⟨h c _ (mem_uc main_v48 (by decide)), h c _ (mem_uc main_v97 (by decide)), h c _ (mem_uc main_v101 (by decide)),
       (h c _ (mem_uc main_arg0 (by decide))).trans (V9_main_arg0 m (outsB m) c),
       (h c _ (mem_uc main_arg1 (by decide))).trans (V9_main_arg1 m (outsB m) c),
       (h c _ (mem_uc main_arg2 (by decide))).trans (V9_main_arg2 m (outsB m) c),
       (h c _ (mem_uc main_arg3 (by decide))).trans (V9_main_arg3 m (outsB m) c),
       (h c _ (mem_uc main_arg4 (by decide))).trans (V9_main_arg4 m (outsB m) c),
       (h c _ (mem_uc main_arg5 (by decide))).trans (V9_main_arg5 m (outsB m) c),
       (h c _ (mem_uc main_arg6 (by decide))).trans (V9_main_arg6 m (outsB m) c),
       (h c _ (mem_uc main_arg7 (by decide))).trans (V9_main_arg7 m (outsB m) c),
       (h c _ (mem_uc main_arg8 (by decide))).trans (V9_main_arg8 m (outsB m) c),
       (h c _ (mem_uc main_arg9 (by decide))).trans (V9_main_arg9 m (outsB m) c),
       (h c _ (mem_uc main_arg10 (by decide))).trans (V9_main_arg10 m (outsB m) c),
       (h c _ (mem_uc main_arg11 (by decide))).trans (V9_main_arg11 m (outsB m) c),
       (h c _ (mem_uc main_arg12 (by decide))).trans (V9_main_arg12 m (outsB m) c),
       (h c _ (mem_uc main_arg13 (by decide))).trans (V9_main_arg13 m (outsB m) c),
       (h c _ (mem_uc main_arg14 (by decide))).trans (V9_main_arg14 m (outsB m) c),
       (h c _ (mem_uc main_arg15 (by decide))).trans (V9_main_arg15 m (outsB m) c),
       (h c _ (mem_uc main_arg16 (by decide))).trans (V9_main_arg16 m (outsB m) c),
       (h c _ (mem_uc main_arg17 (by decide))).trans (V9_main_arg17 m (outsB m) c)⟩)
      (run_all (F := Ideal) m ρ (outsB m) (outsB_4 m) (outsB_8 m))
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7, e8, e9, e10, e11, e12, e13, e14, e15, e16, e17⟩ := hagree c
    refine ⟨?_, ?_, ?_, hargs⟩
    · rw [h0, Cert.ReferenceIdeal.Read.val_main_v48_eq, e0, e1, e2, e3, e8, e10, e11, e12]
      exact (Cert.KernelIdeal.Values.val0 m c).symm
    · rw [h1, Cert.ReferenceIdeal.Read.val_main_v97_eq, e4, e5, e6, e7, e9, e13, e14, e15]
      exact (Cert.KernelIdeal.Values.val1 m c).symm
    · rw [h2, Cert.ReferenceIdeal.Read.val_main_v101_eq, e0, e1, e2, e3, e10, e11, e16, e17]
      exact (Cert.KernelIdeal.Values.val2 m c).symm

end Cert.Proof.Claims

end
-- ==== Proof.lean ====
/- The proof of `Cert.Claim`: the kernel program (a graph auto-encoder's two branches, each ending in the inner-product decoder
   flatten(z · zᵀ) computed by a tiled matrix-unit kernel) against the plain reference.

   Proof/KData, KBody, KShare, KRegions (word-level program) and Proof/KIData, KIBody, KIShare, KIRegions (idealized program):
   the decoder call's blocks and proof data, the body at a grid point, entering and leaving a call whose two operand windows
   read one array, and the run of @main with every unscoped buffer read at the end — hence the two frames.
   Proof/HostChain: the kernel program's host operations compute the reference's stage functions.
   Proof/GramSpec, GramRef, GramBlock, GramArray, GramFlat, GramFlatK, LibMatmulT: the product z · zᵀ index by index —
   as the reference's contraction, as one tile of the kernel, as the whole result array, and flattened.
   Proof/Values: the kernel program's three results are the reference's stage functions of the arguments.
   Proof/Claims: the five claims, assembled here behind the witnesses of the programs' stated facts. -/
import proofs.«105174_j53644141527286_1_alg».proof.Defs
import proofs.«105174_j53644141527286_1_alg».proof.Proof.Claims
import proofs.«105174_j53644141527286_1_alg».proof.Proof.Gen.Kernel
import proofs.«105174_j53644141527286_1_alg».proof.Proof.Gen.Kernel.Skeleton
import proofs.«105174_j53644141527286_1_alg».proof.Proof.Gen.Kernel.Launch
import proofs.«105174_j53644141527286_1_alg».proof.Proof.Gen.Kernel.Regions
import proofs.«105174_j53644141527286_1_alg».proof.Proof.Gen.Kernel.Points
import proofs.«105174_j53644141527286_1_alg».proof.Proof.Gen.KernelIdeal
import proofs.«105174_j53644141527286_1_alg».proof.Proof.Gen.KernelIdeal.Skeleton
import proofs.«105174_j53644141527286_1_alg».proof.Proof.Gen.KernelIdeal.Launch
import proofs.«105174_j53644141527286_1_alg».proof.Proof.Gen.KernelIdeal.Regions
import proofs.«105174_j53644141527286_1_alg».proof.Proof.Gen.KernelIdeal.Points
import proofs.«105174_j53644141527286_1_alg».proof.Proof.Gen.ReferenceIdeal
import proofs.«105174_j53644141527286_1_alg».proof.Proof.Gen.ReferenceIdeal.Run
import proofs.«105174_j53644141527286_1_alg».proof.Proof.Gen.ReferenceIdeal.Read
import proofs.«105174_j53644141527286_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
